-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x25 : Shape := ⟨2, ![16, 25]⟩
abbrev S25x256 : Shape := ⟨2, ![25, 256]⟩
abbrev S1x256 : Shape := ⟨2, ![1, 256]⟩
abbrev S256x128 : Shape := ⟨2, ![256, 128]⟩
abbrev S1x128 : Shape := ⟨2, ![1, 128]⟩
abbrev S128x64 : Shape := ⟨2, ![128, 64]⟩
abbrev S1x64 : Shape := ⟨2, ![1, 64]⟩
abbrev S16x16 : Shape := ⟨2, ![16, 16]⟩
abbrev S64x16 : Shape := ⟨2, ![64, 16]⟩
abbrev S64x7 : Shape := ⟨2, ![64, 7]⟩
abbrev S3x1400000 : Shape := ⟨2, ![3, 1400000]⟩
abbrev S_ : Shape := ⟨0, ![]⟩

class Facts : Prop where
  bcast_S_S16x25 : S_.BroadcastsInDim S16x25 (![] : Fin 0 → Fin S16x25.rank)
  reducesTo_S16x25_S_d0_1 : S16x25.ReducesTo [0, 1] S_
  h_S_ : 0 < S_.numel
  bcast_S_S25x256 : S_.BroadcastsInDim S25x256 (![] : Fin 0 → Fin S25x256.rank)
  reducesTo_S25x256_S_d0_1 : S25x256.ReducesTo [0, 1] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_
  bcast_S_S128x64 : S_.BroadcastsInDim S128x64 (![] : Fin 0 → Fin S128x64.rank)
  reducesTo_S128x64_S_d0_1 : S128x64.ReducesTo [0, 1] S_
  bcast_S_S1x64 : S_.BroadcastsInDim S1x64 (![] : Fin 0 → Fin S1x64.rank)
  reducesTo_S1x64_S_d0_1 : S1x64.ReducesTo [0, 1] S_
  bcast_S_S16x16 : S_.BroadcastsInDim S16x16 (![] : Fin 0 → Fin S16x16.rank)
  reducesTo_S16x16_S_d0_1 : S16x16.ReducesTo [0, 1] S_
  bcast_S_S64x16 : S_.BroadcastsInDim S64x16 (![] : Fin 0 → Fin S64x16.rank)
  reducesTo_S64x16_S_d0_1 : S64x16.ReducesTo [0, 1] S_
  bcast_S_S64x7 : S_.BroadcastsInDim S64x7 (![] : Fin 0 → Fin S64x7.rank)
  reducesTo_S64x7_S_d0_1 : S64x7.ReducesTo [0, 1] S_
  bcast_S_S3x1400000 : S_.BroadcastsInDim S3x1400000 (![] : Fin 0 → Fin S3x1400000.rank)
  reducesTo_S3x1400000_S_d0_1 : S3x1400000.ReducesTo [0, 1] S_

variable [Facts]

def fn_part3 {F : FTy → Type} [FloatOps F] (main_v48 : IVec S_ 1) (main_v49 : FVec F S3x1400000 .f32) (main_v50 : FVec F S3x1400000 .f32) : IVec S_ 1 :=
  let main_v51 : IVec S3x1400000 1 := cmpf .olt main_v49 main_v50
  let main_c_19 : IVec S_ 1 := constantI S_ 1 1#1
  let main_v52 : IVec S_ 1 := (fun x v => Host.reduce IntOp.andi x v reducesTo_S3x1400000_S_d0_1 h_S_) main_v51 main_c_19
  let main_v53 : IVec S_ 1 := andi main_v48 main_v52
  main_v53

def fn_part2 {F : FTy → Type} [FloatOps F] (main_arg7 : FVec F S16x16 .f32) (main_arg8 : FVec F S64x16 .f32) (main_arg9 : FVec F S64x7 .f32) (main_arg10 : FVec F S3x1400000 .f32) (main_v33 : IVec S_ 1) : IVec S_ 1 :=
  let main_v34 : FVec F S16x16 .f32 := Host.absf main_arg7
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S64x16 .f32 := Host.absf main_arg8
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S64x7 .f32 := Host.absf main_arg9
  let main_cst_16 : FVec F S_ .f32 := constant S_ .f32 0x7F800000#32
  let main_v45 : FVec F S64x7 .f32 := broadcastInDim S64x7 ![] bcast_S_S64x7 main_cst_16
  let main_v46 : IVec S64x7 1 := cmpf .olt main_v44 main_v45
  let main_c_17 : IVec S_ 1 := constantI S_ 1 1#1
  let main_v47 : IVec S_ 1 := (fun x v => Host.reduce IntOp.andi x v reducesTo_S64x7_S_d0_1 h_S_) main_v46 main_c_17
  let main_v48 : IVec S_ 1 := andi main_v43 main_v47
  let main_v49 : FVec F S3x1400000 .f32 := Host.absf main_arg10
  let main_cst_18 : FVec F S_ .f32 := constant S_ .f32 0x7F800000#32
  let main_v50 : FVec F S3x1400000 .f32 := broadcastInDim S3x1400000 ![] bcast_S_S3x1400000 main_cst_18
  fn_part3 (F := F) main_v48 main_v49 main_v50

def fn_part1 {F : FTy → Type} [FloatOps F] (main_arg4 : FVec F S1x128 .f32) (main_arg5 : FVec F S128x64 .f32) (main_arg6 : FVec F S1x64 .f32) (main_arg7 : FVec F S16x16 .f32) (main_arg8 : FVec F S64x16 .f32) (main_arg9 : FVec F S64x7 .f32) (main_arg10 : FVec F S3x1400000 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16x25 .f32) (main_arg1 : FVec F S25x256 .f32) (main_arg2 : FVec F S1x256 .f32) (main_arg3 : FVec F S256x128 .f32) (main_arg4 : FVec F S1x128 .f32) (main_arg5 : FVec F S128x64 .f32) (main_arg6 : FVec F S1x64 .f32) (main_arg7 : FVec F S16x16 .f32) (main_arg8 : FVec F S64x16 .f32) (main_arg9 : FVec F S64x7 .f32) (main_arg10 : FVec F S3x1400000 .f32) : IVec S_ 1 :=
  let main_v0 : FVec F S16x25 .f32 := Host.absf main_arg0
  let main_cst : FVec F S_ .f32 := constant S_ .f32 0x7F800000#32
  let main_v1 : FVec F S16x25 .f32 := broadcastInDim S16x25 ![] bcast_S_S16x25 main_cst
  let main_v2 : IVec S16x25 1 := cmpf .olt main_v0 main_v1
  let main_c : IVec S_ 1 := constantI S_ 1 1#1
  let main_v3 : IVec S_ 1 := (fun x v => Host.reduce IntOp.andi x v reducesTo_S16x25_S_d0_1 h_S_) main_v2 main_c
  let main_v4 : FVec F S25x256 .f32 := Host.absf main_arg1
  let main_cst_0 : FVec F S_ .f32 := constant S_ .f32 0x7F800000#32
  let main_v5 : FVec F S25x256 .f32 := broadcastInDim S25x256 ![] bcast_S_S25x256 main_cst_0
  let main_v6 : IVec S25x256 1 := cmpf .olt main_v4 main_v5
  let main_c_1 : IVec S_ 1 := constantI S_ 1 1#1
  let main_v7 : IVec S_ 1 := (fun x v => Host.reduce IntOp.andi x v reducesTo_S25x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_v13 main_v16
-- ==== Kernel.lean ====
abbrev S16x25 : Shape := ⟨2, ![16, 25]⟩
abbrev S25x256 : Shape := ⟨2, ![25, 256]⟩
abbrev S1x256 : Shape := ⟨2, ![1, 256]⟩
abbrev S256x128 : Shape := ⟨2, ![256, 128]⟩
abbrev S1x128 : Shape := ⟨2, ![1, 128]⟩
abbrev S128x64 : Shape := ⟨2, ![128, 64]⟩
abbrev S1x64 : Shape := ⟨2, ![1, 64]⟩
abbrev S16x16 : Shape := ⟨2, ![16, 16]⟩
abbrev S64x16 : Shape := ⟨2, ![64, 16]⟩
abbrev S64x7 : Shape := ⟨2, ![64, 7]⟩
abbrev S3x1400000 : Shape := ⟨2, ![3, 1400000]⟩
abbrev S16x64 : Shape := ⟨2, ![16, 64]⟩
abbrev S16x256 : Shape := ⟨2, ![16, 256]⟩
abbrev S16x128 : Shape := ⟨2, ![16, 128]⟩
abbrev S1x64x1x16 : Shape := ⟨4, ![1, 64, 1, 16]⟩
abbrev S16x64x1x16 : Shape := ⟨4, ![16, 64, 1, 16]⟩
abbrev S1024x16 : Shape := ⟨2, ![1024, 16]⟩
abbrev S1024x1 : Shape := ⟨2, ![1024, 1]⟩
abbrev S1024x17 : Shape := ⟨2, ![1024, 17]⟩
abbrev S64x1 : Shape := ⟨2, ![64, 1]⟩
abbrev S1x64x1x1 : Shape := ⟨4, ![1, 64, 1, 1]⟩
abbrev S16x64x1x1 : Shape := ⟨4, ![16, 64, 1, 1]⟩
abbrev S_ : Shape := ⟨0, ![]⟩
abbrev S3x1400832 : Shape := ⟨2, ![3, 1400832]⟩
abbrev S16x1400832 : Shape := ⟨2, ![16, 1400832]⟩
abbrev S3x1024 : Shape := ⟨2, ![3, 1024]⟩
abbrev S16x1024 : Shape := ⟨2, ![16, 1024]⟩
abbrev S16x1 : Shape := ⟨2, ![16, 1]⟩
abbrev S16x3 : Shape := ⟨2, ![16, 3]⟩
abbrev S1x1 : Shape := ⟨2, ![1, 1]⟩
abbrev S1x1024 : Shape := ⟨2, ![1, 1024]⟩
abbrev S17x1024 : Shape := ⟨2, ![17, 1024]⟩
abbrev S1024x1024 : Shape := ⟨2, ![1024, 1024]⟩
abbrev S16x64x1024 : Shape := ⟨3, ![16, 64, 1024]⟩
abbrev S16x1400000 : Shape := ⟨2, ![16, 1400000]⟩

abbrev nBuf : Space → Nat
  | .hbm => 26
  | .vmem => 16
  | .smem => 0
  | _ => 0

abbrev bufTy : (tb : Table) → Fin (tcTables nBuf tb) → BufTy
  | .hbm, ⟨0, _⟩ => ⟨S16x25, .f32⟩
  | .hbm, ⟨1, _⟩ => ⟨S25x256, .f32⟩
  | .hbm, ⟨2, _⟩ => ⟨S1x256, .f32⟩
  | .hbm, ⟨3, _⟩ => ⟨S256x128, .f32⟩
  | .hbm, ⟨4, _⟩ => ⟨S1x128, .f32⟩
  | .hbm, ⟨5, _⟩ => ⟨S128x64, .f32⟩
  | .hbm, ⟨6, _⟩ => ⟨S1x64, .f32⟩
  | .hbm, ⟨7, _⟩ => ⟨S16x16, .f32⟩
  | .hbm, ⟨8, _⟩ => ⟨S64x16, .f32⟩
  | .hbm, ⟨9, _⟩ => ⟨S64x7, .f32⟩
  | .hbm, ⟨10, _⟩ => ⟨S3x1400000, .f32⟩
  | .hbm, ⟨11, _⟩ => ⟨S16x64, .f32⟩
  | .hbm, ⟨12, _⟩ => ⟨S1x64x1x16, .f32⟩
  | .hbm, ⟨13, _⟩ => ⟨S16x64x1x16, .f32⟩
  | .hbm, ⟨14, _⟩ => ⟨S1024x16, .f32⟩
  | .hbm, ⟨15, _⟩ => ⟨S1024x1, .f32⟩
  | .hbm, ⟨16, _⟩ => ⟨S1024x17, .f32⟩
  | .hbm, ⟨17, _⟩ => ⟨S64x1, .f32⟩
  | .hbm, ⟨18, _⟩ => ⟨S1x64x1x1, .f32⟩
  | .hbm, ⟨19, _⟩ => ⟨S16x64x1x1, .f32⟩
  | .hbm, ⟨20, _⟩ => ⟨S1024x1, .f32⟩
  | .hbm, ⟨21, _⟩ => ⟨S_, .i32⟩
  | .hbm, ⟨22, _⟩ => ⟨S_, .f32⟩
  | .hbm, ⟨23, _⟩ => ⟨S3x1400832, .f32⟩
  | .hbm, ⟨24, _⟩ => ⟨S16x1400832, .f32⟩
  | .hbm, ⟨25, _⟩ => ⟨S16x1400000, .f32⟩
  | .local _ .vmem, ⟨0, _⟩ => ⟨S16x25, .f32⟩
  | .local _ .vmem, ⟨1, _⟩ => ⟨S25x256, .f32⟩
  | .local _ .vmem, ⟨2, _⟩ => ⟨S1x256, .f32⟩
  | .local _ .vmem, ⟨3, _⟩ => ⟨S256x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S16x64, .f32⟩
  | .local _ .vmem, ⟨8, _⟩ => ⟨S1024x17, .f32⟩
  | .local _ .vmem, ⟨9, _⟩ => ⟨S3x1024, .f32⟩
  | .local _ .vmem, ⟨10, _⟩ => ⟨S3x1024, .f32⟩
  | .local _ .vmem, ⟨11, _⟩ => ⟨S16x16, .f32⟩
  | .local _ .vmem, ⟨12, _⟩ => ⟨S64x7, .f32⟩
  | .local _ .vmem, ⟨13, _⟩ => ⟨S1024x1, .f32⟩
  | .local _ .vmem, ⟨14, _⟩ => ⟨S16x1024, .f32⟩
  | .local _ .vmem, ⟨15, _⟩ => ⟨S16x1024, .f32⟩
  | _, _ => ⟨S16x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call0_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := .none

abbrev stage0_0 : Fin 1 → Memref sig .tc .vmem S16x25 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S25x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![1368], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x17 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S16x25_S16x25_0_0 : ∀ a, (![0, 0] : Fin 2 → Nat) a + S16x25.size a ≤ S16x25.size a
  h_S16x25 : 0 < S16x25.numel
  inb_S25x256_S25x256_0_0 : ∀ a, (![0, 0] : Fin 2 → Nat) a + S25x256.size a ≤ S25x256.size a
  h_S25x256 : 0 < S25x256.numel
  inb_S1x256_S1x256_0_0 : ∀ a, (![0, 0] : Fin 2 → Nat) a + S1x256.size a ≤ S1x256.size a
  h_S1x256 : 0 < S1x256.numel
  broadcasts_S1x256_S16x256 : S1x256.Broadcasts S16x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S16x128 : S1x128.Broadcasts S16x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  broadcasts_S1x64_S16x64 : S1x64.Broadcasts S16x64
  inb_S16x64_S16x64_0_0 : ∀ a, (![0, 0] : Fin 2 → Nat) a + S16x64.size a ≤ S16x64.size a
  h_S16x64 : 0 < S16x64.numel
  shapeCasts_S64x16_S1x64x1x16 : S64x16.ShapeCasts S1x64x1x16
  bcast_S1x64x1x16_S16x64x1x16_0_1_2_3 : S1x64x1x16.BroadcastsInDim S16x64x1x16 (![0, 1, 2, 3] : Fin 4 → Fin S16x64x1x16.rank)
  shapeCasts_S16x64x1x16_S1024x16 : S16x64x1x16.ShapeCasts S1024x16
  shapeCasts_S16x64_S1024x1 : S16x64.ShapeCasts S1024x1
  concatenates_S1024x16_S1024x1_S1024x17_d1 : Shape.Concatenates [S1024x16, S1024x1] S1024x17 1
  slices_S64x7_S64x1_0_0 : S64x7.Slices ![0, 0] S64x1
  shapeCasts_S64x1_S1x64x1x1 : S64x1.ShapeCasts S1x64x1x1
  bcast_S1x64x1x1_S16x64x1x1_0_1_2_3 : S1x64x1x1.BroadcastsInDim S16x64x1x1 (![0, 1, 2, 3] : Fin 4 → Fin S16x64x1x1.rank)
  shapeCasts_S16x64x1x1_S1024x1 : S16x64x1x1.ShapeCasts S1024x1
  pads_S3x1400000_S3x1400832_000_08320 : S3x1400000.Pads (![0, 0] : Fin 2 → Nat) ![0, 832] ![0, 0] S3x1400832
  h_S_ : 0 < S_.numel
  inb_S64x7_S64x7_0_0 : ∀ a, (![0, 0] : Fin 2 → Nat) a + S64x7.size a ≤ S64x7.size a
  h_S64x7 : 0 < S64x7.numel
  slices_S64x7_o0_1_S16x1 : S64x7.Slices ![0, 1] S16x1
  slices_S64x7_o0_2_S16x1 : S64x7.Slices ![0, 2] S16x1
  slices_S64x7_o0_3_S16x3 : S64x7.Slices ![0, 3] S16x3
  slices_S64x7_o0_6_S1x1 : S64x7.Slices ![0, 6] S1x1
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S16x3_o0_0_S16x1 : S16x3.Slices ![0, 0] S16x1
  slices_S3x1024_o0_0_S1x1024 : S3x1024.Slices ![0, 0] S1x1024
  broadcasts_S16x1_S16x1024 : S16x1.Broadcasts S16x1024
  broadcasts_S1x1024_S16x1024 : S1x1024.Broadcasts S16x1024
  slices_S16x3_o0_1_S16x1 : S16x3.Slices ![0, 1] S16x1
  slices_S3x1024_o1_0_S1x1024 : S3x1024.Slices ![1, 0] S1x1024
  slices_S16x3_o0_2_S16x1 : S16x3.Slices ![0, 2] S16x1
  slices_S3x1024_o2_0_S1x1024 : S3x1024.Slices ![2, 0] S1x1024
  inb_S16x16_S16x16_0_0 : ∀ a, (![0, 0] : Fin 2 → Nat) a + S16x16.size a ≤ S16x16.size a
  h_S16x16 : 0 < S16x16.numel
  concatenates_S16x1024_S1x1024_S17x1024_d0 : Shape.Concatenates [S16x1024, S1x1024] S17x1024 0
  inb_S1024x17_S1024x17_0_0 : ∀ a, (![0, 0] : Fin 2 → Nat) a + S1024x17.size a ≤ S1024x17.size a
  h_S1024x17 : 0 < S1024x17.numel
  shapeCasts_S1024x17_S1024x17 : S1024x17.ShapeCasts S1024x17
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  shapeCasts_S1024x1024_S16x64x1024 : S1024x1024.ShapeCasts S16x64x1024
  reduces_S16x64x1024_S16x1024 : S16x64x1024.Reduces [1] S16x1024
  broadcasts_S1x1_S16x1024 : S1x1.Broadcasts S16x1024
  inb_S16x1024_S16x1024_0_0 : ∀ a, (![0, 0] : Fin 2 → Nat) a + S16x1024.size a ≤ S16x1024.size a
  h_S16x1024 : 0 < S16x1024.numel
  slices_S16x1400832_S16x1400000_0_0 : S16x1400832.Slices ![0, 0] S16x1400000
  dot_S16x25_S25x256_S16x256_1_0_0_1_n_n_wf : DotDims.WF S16x25 S25x256 S16x256 [1] [0] [0] [1] [] []
  dot_S16x256_S256x128_S16x128_1_0_0_1_n_n_wf : DotDims.WF S16x256 S256x128 S16x128 [1] [0] [0] [1] [] []
  dot_S16x128_S128x64_S16x64_1_0_0_1_n_n_wf : DotDims.WF S16x128 S128x64 S16x64 [1] [0] [0] [1] [] []
  dot_S16x16_S16x1024_S16x1024_1_0_0_1_n_n_wf : DotDims.WF S16x16 S16x1024 S16x1024 [1] [0] [0] [1] [] []
  dot_S1024x17_S17x1024_S1024x1024_1_0_0_1_n_n_wf : DotDims.WF S1024x17 S17x1024 S1024x1024 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x17.size a ≤ S1024x17.size a
  hwx1_0 : ∀ i : grid1.Coords, EltTy.bits .f32 = 32 ∨ (Rect.block (s := S1024x17) S1024x17.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x1024.size a ≤ S3x1400832.size a
  hwx1_1 : ∀ i : grid1.Coords, EltTy.bits .f32 = 32 ∨ (Rect.block (s := S3x1400832) S3x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x7.size a ≤ S64x7.size a
  hwx1_3 : ∀ i : grid1.Coords, EltTy.bits .f32 = 32 ∨ (Rect.block (s := S64x7) S64x7.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S1024x1.size a
  hwx1_4 : ∀ i : grid1.Coords, EltTy.bits .f32 = 32 ∨ (Rect.block (s := S1024x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16x1024.size a ≤ S16x1400832.size a
  hwx1_5 : ∀ i : grid1.Coords, EltTy.bits .f32 = 32 ∨ (Rect.block (s := S16x1400832) S16x1024.size (cc1_transform_5 i) (hinb1_5 i)).WholeWords (EltTy.packing .f32)

variable [Facts₀]

def dot_S16x25_S25x256_S16x256_1_0_0_1_n_n : DotDims S16x25 S25x256 S16x256 where
  lhsContracting := [1]
  rhsContracting := [0]
  lhsNonContracting := [0]
  rhsNonContracting := [1]
  lhsBatch := []
  rhsBatch := []
  wf := dot_S16x25_S25x256_S16x256_1_0_0_1_n_n_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x64_S16x64_1_0_0_1_n_n : DotDims S16x128 S128x64 S16x64 where
  lhsContracting := [1]
  rhsContracting := [0]
  lhsNonContracting := [0]
  rhsNonContracting := [1]
  lhsBatch := []
  rhsBatch := []
  wf := dot_S16x128_S128x64_S16x64_1_0_0_1_n_n_wf
def dot_S16x16_S16x1024_S16x1024_1_0_0_1_n_n : DotDims S16x16 S16x1024 S16x1024 where
  lhsContracting := [1]
  rhsContracting := [0]
  lhsNonContracting := [0]
  rhsNonContracting := [1]
  lhsBatch := []
  rhsBatch := []
  wf := dot_S16x16_S16x1024_S16x1024_1_0_0_1_n_n_wf
def dot_S1024x17_S17x1024_S1024x1024_1_0_0_1_n_n : DotDims S1024x17 S17x1024 S1024x1024 where
  lhsContracting := [1]
  rhsContracting := [0]
  lhsNonContracting := [0]
  rhsNonContracting := [1]
  lhsBatch := []
  rhsBatch := []
  wf := dot_S1024x17_S17x1024_S1024x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v0) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v5) S1024x17.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S3x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1024x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S16x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x25 : Shape := ⟨2, ![16, 25]⟩
abbrev S25x256 : Shape := ⟨2, ![25, 256]⟩
abbrev S1x256 : Shape := ⟨2, ![1, 256]⟩
abbrev S256x128 : Shape := ⟨2, ![256, 128]⟩
abbrev S1x128 : Shape := ⟨2, ![1, 128]⟩
abbrev S128x64 : Shape := ⟨2, ![128, 64]⟩
abbrev S1x64 : Shape := ⟨2, ![1, 64]⟩
abbrev S16x16 : Shape := ⟨2, ![16, 16]⟩
abbrev S64x16 : Shape := ⟨2, ![64, 16]⟩
abbrev S64x7 : Shape := ⟨2, ![64, 7]⟩
abbrev S3x1400000 : Shape := ⟨2, ![3, 1400000]⟩
abbrev S16x64 : Shape := ⟨2, ![16, 64]⟩
abbrev S16x256 : Shape := ⟨2, ![16, 256]⟩
abbrev S16x128 : Shape := ⟨2, ![16, 128]⟩
abbrev S_ : Shape := ⟨0, ![]⟩
abbrev S3x1400320 : Shape := ⟨2, ![3, 1400320]⟩
abbrev S16x1400320 : Shape := ⟨2, ![16, 1400320]⟩
abbrev S3x512 : Shape := ⟨2, ![3, 512]⟩
abbrev S16x512 : Shape := ⟨2, ![16, 512]⟩
abbrev S64x1 : Shape := ⟨2, ![64, 1]⟩
abbrev S16x1 : Shape := ⟨2, ![16, 1]⟩
abbrev S16x3 : Shape := ⟨2, ![16, 3]⟩
abbrev S1x1 : Shape := ⟨2, ![1, 1]⟩
abbrev S1x512 : Shape := ⟨2, ![1, 512]⟩
abbrev S64x512 : Shape := ⟨2, ![64, 512]⟩
abbrev S512 : Shape := ⟨1, ![512]⟩
abbrev S16x1400000 : Shape := ⟨2, ![16, 1400000]⟩

abbrev nBuf : Space → Nat
  | .hbm => 18
  | .vmem => 16
  | .smem => 0
  | _ => 0

abbrev bufTy : (tb : Table) → Fin (tcTables nBuf tb) → BufTy
  | .hbm, ⟨0, _⟩ => ⟨S16x25, .f32⟩
  | .hbm, ⟨1, _⟩ => ⟨S25x256, .f32⟩
  | .hbm, ⟨2, _⟩ => ⟨S1x256, .f32⟩
  | .hbm, ⟨3, _⟩ => ⟨S256x128, .f32⟩
  | .hbm, ⟨4, _⟩ => ⟨S1x128, .f32⟩
  | .hbm, ⟨5, _⟩ => ⟨S128x64, .f32⟩
  | .hbm, ⟨6, _⟩ => ⟨S1x64, .f32⟩
  | .hbm, ⟨7, _⟩ => ⟨S16x16, .f32⟩
  | .hbm, ⟨8, _⟩ => ⟨S64x16, .f32⟩
  | .hbm, ⟨9, _⟩ => ⟨S64x7, .f32⟩
  | .hbm, ⟨10, _⟩ => ⟨S3x1400000, .f32⟩
  | .hbm, ⟨11, _⟩ => ⟨S16x64, .f32⟩
  | .hbm, ⟨12, _⟩ => ⟨S64x16, .f32⟩
  | .hbm, ⟨13, _⟩ => ⟨S_, .i32⟩
  | .hbm, ⟨14, _⟩ => ⟨S_, .f32⟩
  | .hbm, ⟨15, _⟩ => ⟨S3x1400320, .f32⟩
  | .hbm, ⟨16, _⟩ => ⟨S16x1400320, .f32⟩
  | .hbm, ⟨17, _⟩ => ⟨S16x1400000, .f32⟩
  | .local _ .vmem, ⟨0, _⟩ => ⟨S16x25, .f32⟩
  | .local _ .vmem, ⟨1, _⟩ => ⟨S25x256, .f32⟩
  | .local _ .vmem, ⟨2, _⟩ => ⟨S1x256, .f32⟩
  | .local _ .vmem, ⟨3, _⟩ => ⟨S256x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S16x64, .f32⟩
  | .local _ .vmem, ⟨8, _⟩ => ⟨S64x16, .f32⟩
  | .local _ .vmem, ⟨9, _⟩ => ⟨S3x512, .f32⟩
  | .local _ .vmem, ⟨10, _⟩ => ⟨S3x512, .f32⟩
  | .local _ .vmem, ⟨11, _⟩ => ⟨S16x16, .f32⟩
  | .local _ .vmem, ⟨12, _⟩ => ⟨S64x16, .f32⟩
  | .local _ .vmem, ⟨13, _⟩ => ⟨S64x7, .f32⟩
  | .local _ .vmem, ⟨14, _⟩ => ⟨S16x512, .f32⟩
  | .local _ .vmem, ⟨15, _⟩ => ⟨S16x512, .f32⟩
  | _, _ => ⟨S16x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := .none

abbrev stage0_0 : Fin 1 → Memref sig .tc .vmem S16x25 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S25x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![2735], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x7 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S16x25_S16x25_0_0 : ∀ a, (![0, 0] : Fin 2 → Nat) a + S16x25.size a ≤ S16x25.size a
  h_S16x25 : 0 < S16x25.numel
  inb_S25x256_S25x256_0_0 : ∀ a, (![0, 0] : Fin 2 → Nat) a + S25x256.size a ≤ S25x256.size a
  h_S25x256 : 0 < S25x256.numel
  inb_S1x256_S1x256_0_0 : ∀ a, (![0, 0] : Fin 2 → Nat) a + S1x256.size a ≤ S1x256.size a
  h_S1x256 : 0 < S1x256.numel
  broadcasts_S1x256_S16x256 : S1x256.Broadcasts S16x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S16x128 : S1x128.Broadcasts S16x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  broadcasts_S1x64_S16x64 : S1x64.Broadcasts S16x64
  inb_S16x64_S16x64_0_0 : ∀ a, (![0, 0] : Fin 2 → Nat) a + S16x64.size a ≤ S16x64.size a
  h_S16x64 : 0 < S16x64.numel
  transposes_S16x64_S64x16_1_0 : S16x64.Transposes [1, 0] S64x16
  pads_S3x1400000_S3x1400320_000_03200 : S3x1400000.Pads (![0, 0] : Fin 2 → Nat) ![0, 320] ![0, 0] S3x1400320
  h_S_ : 0 < S_.numel
  inb_S64x7_S64x7_0_0 : ∀ a, (![0, 0] : Fin 2 → Nat) a + S64x7.size a ≤ S64x7.size a
  h_S64x7 : 0 < S64x7.numel
  slices_S64x7_o0_0_S64x1 : S64x7.Slices ![0, 0] S64x1
  slices_S64x7_o0_1_S16x1 : S64x7.Slices ![0, 1] S16x1
  slices_S64x7_o0_2_S16x1 : S64x7.Slices ![0, 2] S16x1
  slices_S64x7_o0_3_S16x3 : S64x7.Slices ![0, 3] S16x3
  slices_S64x7_o0_6_S1x1 : S64x7.Slices ![0, 6] S1x1
  inb_S3x512_S3x512_0_0 : ∀ a, (![0, 0] : Fin 2 → Nat) a + S3x512.size a ≤ S3x512.size a
  h_S3x512 : 0 < S3x512.numel
  shapeCasts_S3x512_S3x512 : S3x512.ShapeCasts S3x512
  slices_S16x3_o0_0_S16x1 : S16x3.Slices ![0, 0] S16x1
  slices_S3x512_o0_0_S1x512 : S3x512.Slices ![0, 0] S1x512
  broadcasts_S16x1_S16x512 : S16x1.Broadcasts S16x512
  broadcasts_S1x512_S16x512 : S1x512.Broadcasts S16x512
  slices_S16x3_o0_1_S16x1 : S16x3.Slices ![0, 1] S16x1
  slices_S3x512_o1_0_S1x512 : S3x512.Slices ![1, 0] S1x512
  slices_S16x3_o0_2_S16x1 : S16x3.Slices ![0, 2] S16x1
  slices_S3x512_o2_0_S1x512 : S3x512.Slices ![2, 0] S1x512
  inb_S16x16_S16x16_0_0 : ∀ a, (![0, 0] : Fin 2 → Nat) a + S16x16.size a ≤ S16x16.size a
  h_S16x16 : 0 < S16x16.numel
  inb_S64x16_S64x16_0_0 : ∀ a, (![0, 0] : Fin 2 → Nat) a + S64x16.size a ≤ S64x16.size a
  h_S64x16 : 0 < S64x16.numel
  shapeCasts_S64x16_S64x16 : S64x16.ShapeCasts S64x16
  slices_S64x16_o0_0_S64x1 : S64x16.Slices ![0, 0] S64x1
  broadcasts_S64x1_S64x512 : S64x1.Broadcasts S64x512
  reduces_S64x512_S512 : S64x512.Reduces [0] S512
  shapeCasts_S512_S1x512 : S512.ShapeCasts S1x512
  slices_S64x16_o0_1_S64x1 : S64x16.Slices ![0, 1] S64x1
  slices_S64x16_o0_2_S64x1 : S64x16.Slices ![0, 2] S64x1
  slices_S64x16_o0_3_S64x1 : S64x16.Slices ![0, 3] S64x1
  slices_S64x16_o0_4_S64x1 : S64x16.Slices ![0, 4] S64x1
  slices_S64x16_o0_5_S64x1 : S64x16.Slices ![0, 5] S64x1
  slices_S64x16_o0_6_S64x1 : S64x16.Slices ![0, 6] S64x1
  slices_S64x16_o0_7_S64x1 : S64x16.Slices ![0, 7] S64x1
  slices_S64x16_o0_8_S64x1 : S64x16.Slices ![0, 8] S64x1
  slices_S64x16_o0_9_S64x1 : S64x16.Slices ![0, 9] S64x1
  slices_S64x16_o0_10_S64x1 : S64x16.Slices ![0, 10] S64x1
  slices_S64x16_o0_11_S64x1 : S64x16.Slices ![0, 11] S64x1
  slices_S64x16_o0_12_S64x1 : S64x16.Slices ![0, 12] S64x1
  slices_S64x16_o0_13_S64x1 : S64x16.Slices ![0, 13] S64x1
  slices_S64x16_o0_14_S64x1 : S64x16.Slices ![0, 14] S64x1
  slices_S64x16_o0_15_S64x1 : S64x16.Slices ![0, 15] S64x1
  concatenates_S1x512_S1x512_S1x512_S1x512_S1x512_S1x512_S1x512_S1x512_S1x512_S1x512_S1x512_S1x512_S1x512_S1x512_S1x512_S1x512_S16x512_d0 : Shape.Concatenates [S1x512, S1x512, S1x512, S1x512, S1x512, S1x512, S1x512, S1x512, S1x512, S1x512, S1x512, S1x512, S1x512, S1x512, S1x512, S1x512] S16x512 0
  broadcasts_S1x1_S16x512 : S1x1.Broadcasts S16x512
  inb_S16x512_S16x512_0_0 : ∀ a, (![0, 0] : Fin 2 → Nat) a + S16x512.size a ≤ S16x512.size a
  h_S16x512 : 0 < S16x512.numel
  slices_S16x1400320_S16x1400000_0_0 : S16x1400320.Slices ![0, 0] S16x1400000
  dot_S16x25_S25x256_S16x256_1_0_0_1_n_n_wf : DotDims.WF S16x25 S25x256 S16x256 [1] [0] [0] [1] [] []
  dot_S16x256_S256x128_S16x128_1_0_0_1_n_n_wf : DotDims.WF S16x256 S256x128 S16x128 [1] [0] [0] [1] [] []
  dot_S16x128_S128x64_S16x64_1_0_0_1_n_n_wf : DotDims.WF S16x128 S128x64 S16x64 [1] [0] [0] [1] [] []
  dot_S16x16_S16x512_S16x512_1_0_0_1_n_n_wf : DotDims.WF S16x16 S16x512 S16x512 [1] [0] [0] [1] [] []
  dot_S64x16_S16x512_S64x512_1_0_0_1_n_n_wf : DotDims.WF S64x16 S16x512 S64x512 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x16.size a ≤ S64x16.size a
  hwx1_0 : ∀ i : grid1.Coords, EltTy.bits .f32 = 32 ∨ (Rect.block (s := S64x16) S64x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x512.size a ≤ S3x1400320.size a
  hwx1_1 : ∀ i : grid1.Coords, EltTy.bits .f32 = 32 ∨ (Rect.block (s := S3x1400320) S3x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x7.size a ≤ S64x7.size a
  hwx1_4 : ∀ i : grid1.Coords, EltTy.bits .f32 = 32 ∨ (Rect.block (s := S64x7) S64x7.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16x512.size a ≤ S16x1400320.size a
  hwx1_5 : ∀ i : grid1.Coords, EltTy.bits .f32 = 32 ∨ (Rect.block (s := S16x1400320) S16x512.size (cc1_transform_5 i) (hinb1_5 i)).WholeWords (EltTy.packing .f32)

variable [Facts₀]

def dot_S16x25_S25x256_S16x256_1_0_0_1_n_n : DotDims S16x25 S25x256 S16x256 where
  lhsContracting := [1]
  rhsContracting := [0]
  lhsNonContracting := [0]
  rhsNonContracting := [1]
  lhsBatch := []
  rhsBatch := []
  wf := dot_S16x25_S25x256_S16x256_1_0_0_1_n_n_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x64_S16x64_1_0_0_1_n_n : DotDims S16x128 S128x64 S16x64 where
  lhsContracting := [1]
  rhsContracting := [0]
  lhsNonContracting := [0]
  rhsNonContracting := [1]
  lhsBatch := []
  rhsBatch := []
  wf := dot_S16x128_S128x64_S16x64_1_0_0_1_n_n_wf
def dot_S16x16_S16x512_S16x512_1_0_0_1_n_n : DotDims S16x16 S16x512 S16x512 where
  lhsContracting := [1]
  rhsContracting := [0]
  lhsNonContracting := [0]
  rhsNonContracting := [1]
  lhsBatch := []
  rhsBatch := []
  wf := dot_S16x16_S16x512_S16x512_1_0_0_1_n_n_wf
def dot_S64x16_S16x512_S64x512_1_0_0_1_n_n : DotDims S64x16 S16x512 S64x512 where
  lhsContracting := [1]
  rhsContracting := [0]
  lhsNonContracting := [0]
  rhsNonContracting := [1]
  lhsBatch := []
  rhsBatch := []
  wf := dot_S64x16_S16x512_S64x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v0) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v1) S64x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S3x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x7.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S16x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.KernelRun.lean ====
/-
  The run of the whole program with its RESULT named.

  The program is two kernel regions among stretches of host operations. Its buffer contents at each boundary are a fold
  from the launch memory: after the first region its arrays hold what the region's write-backs leave, a host stretch
  applies its operations, and so on to the last boundary. Every weakly fair execution terminates, nothing faulting, in a
  state whose unscoped buffers hold that last fold; read at the result buffer this names the result (the last host operation's slice of the second region's output array),
  and read at each argument it gives back the launch contents.
-/
import proofs.«154920_g2000706510910109_pallasbulk_1191_3_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and each argument
    array as launched. -/
theorem run : θ_run defs (onTc (τ := τ) (main (F := F))) ⟨m, fun _ => 0, ρ⟩ (fun r => ∀ c : Dev nD,
      r.2.mem ((c.tc : Thread nD τ).loc main_v12) = W5 m ρ c (Proc.devRef .tc main_v12)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v12 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.RunValue

end
-- ==== Proof.ReferenceRun.lean ====
/-
  The run of the whole program with its RESULT named.

  The program is two kernel regions among stretches of host operations. Its buffer contents at each boundary are a fold
  from the launch memory: after the first region its arrays hold what the region's write-backs leave, a host stretch
  applies its operations, and so on to the last boundary. Every weakly fair execution terminates, nothing faulting, in a
  state whose unscoped buffers hold that last fold; read at the result buffer this names the result (the last host operation's slice of the second region's output array),
  and read at each argument it gives back the launch contents.
-/
import proofs.«154920_g2000706510910109_pallasbulk_1191_3_alg».proof.Proof.Gen.ReferenceIdeal.Frame

set_option maxRecDepth 16384

noncomputable section

namespace Cert.ReferenceIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and each argument
    array as launched. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.ReferenceIdeal.RunValue

end
-- ==== Proof.KernelEnv.lean ====
/-
  What the first region leaves: the environment projection as one function of the launch arrays.

  The first kernel has no grid: its one point stages each whole argument array, the body computes
      relu (relu (x · w1 + b1) · w2 + b2) · wd1e + bd1
  from them and stores the 16 × 64 result, and the one write-back fills the whole result array. So after the region
  the result array is the body's value of the whole argument arrays.
-/
import proofs.«154920_g2000706510910109_pallasbulk_1191_3_alg».proof.Proof.Gen.KernelIdeal.Frame
import Idealize.ShloMosaic.Lib.Pipeline.Value

set_option maxRecDepth 16384

noncomputable section

namespace Cert.KernelIdeal.EnvValue

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-! A block of a window that is its whole array sits in the array at its own coordinates: the block index is zero on
    both axes. -/

theorem emb0_0 (t : Fin cfg0.N) (y : ((cfg0.win 0).xblock (cfg0.grid.coords t)).Idx) :
    ((cfg0.win 0).blk t).view.emb y = y := by
  funext a; apply Fin.ext
  match a with
  | ⟨0, _⟩ => show win0_0.index t (0 : Fin 2) * 16 + 1 * (y 0).val = (y 0).val; have e : win0_0.index t (0 : Fin 2) = 0 := rfl; omega
  | ⟨1, _⟩ => show win0_0.index t (1 : Fin 2) * 25 + 1 * (y 1).val = (y 1).val; have e : win0_0.index t (1 : Fin 2) = 0 := rfl; omega

theorem emb0_1 (t : Fin cfg0.N) (y : ((cfg0.win 1).xblock (cfg0.grid.coords t)).Idx) :
    ((cfg0.win 1).blk t).view.emb y = y := by
  funext a; apply Fin.ext
  match a with
  | ⟨0, _⟩ => show win0_1.index t (0 : Fin 2) * 25 + 1 * (y 0).val = (y 0).val; have e : win0_1.index t (0 : Fin 2) = 0 := rfl; omega
  | ⟨1, _⟩ => show win0_1.index t (1 : Fin 2) * 256 + 1 * (y 1).val = (y 1).val; have e : win0_1.index t (1 : Fin 2) = 0 := rfl; omega

theorem emb0_2 (t : Fin cfg0.N) (y : ((cfg0.win 2).xblock (cfg0.grid.coords t)).Idx) :
    ((cfg0.win 2).blk t).view.emb y = y := by
  funext a; apply Fin.ext
  match a with
  | ⟨0, _⟩ => show win0_2.index t (0 : Fin 2) * 1 + 1 * (y 0).val = (y 0).val; have e : win0_2.index t (0 : Fin 2) = 0 := rfl; omega
  | ⟨1, _⟩ => show win0_2.index t (1 : Fin 2) * 256 + 1 * (y 1).val = (y 1).val; have e : win0_2.index t (1 : Fin 2) = 0 := rfl; omega

theorem emb0_3 (t : Fin cfg0.N) (y : ((cfg0.win 3).xblock (cfg0.grid.coords t)).Idx) :
    ((cfg0.win 3).blk t).view.emb y = y := by
  funext a; apply Fin.ext
  match a with
  | ⟨0, _⟩ => show win0_3.index t (0 : Fin 2) * 256 + 1 * (y 0).val = (y 0).val; have e : win0_3.index t (0 : Fin 2) = 0 := rfl; omega
  | ⟨1, _⟩ => show win0_3.index t (1 : Fin 2) * 128 + 1 * (y 1).val = (y 1).val; have e : win0_3.index t (1 : Fin 2) = 0 := rfl; omega

theorem emb0_4 (t : Fin cfg0.N) (y : ((cfg0.win 4).xblock (cfg0.grid.coords t)).Idx) :
    ((cfg0.win 4).blk t).view.emb y = y := by
  funext a; apply Fin.ext
  match a with
  | ⟨0, _⟩ => show win0_4.index t (0 : Fin 2) * 1 + 1 * (y 0).val = (y 0).val; have e : win0_4.index t (0 : Fin 2) = 0 := rfl; omega
  | ⟨1, _⟩ => show win0_4.index t (1 : Fin 2) * 128 + 1 * (y 1).val = (y 1).val; have e : win0_4.index t (1 : Fin 2) = 0 := rfl; omega

theorem emb0_5 (t : Fin cfg0.N) (y : ((cfg0.win 5).xblock (cfg0.grid.coords t)).Idx) :
    ((cfg0.win 5).blk t).view.emb y = y := by
  funext a; apply Fin.ext
  match a with
  | ⟨0, _⟩ => show win0_5.index t (0 : Fin 2) * 128 + 1 * (y 0).val = (y 0).val; have e : win0_5.index t (0 : Fin 2) = 0 := rfl; omega
  | ⟨1, _⟩ => show win0_5.index t (1 : Fin 2) * 64 + 1 * (y 1).val = (y 1).val; have e : win0_5.index t (1 : Fin 2) = 0 := rfl; omega

theorem emb0_6 (t : Fin cfg0.N) (y : ((cfg0.win 6).xblock (cfg0.grid.coords t)).Idx) :
    ((cfg0.win 6).blk t).view.emb y = y := by
  funext a; apply Fin.ext
  match a with
  | ⟨0, _⟩ => show win0_6.index t (0 : Fin 2) * 1 + 1 * (y 0).val = (y 0).val; have e : win0_6.index t (0 : Fin 2) = 0 := rfl; omega
  | ⟨1, _⟩ => show win0_6.index t (1 : Fin 2) * 64 + 1 * (y 1).val = (y 1).val; have e : win0_6.index t (1 : Fin 2) = 0 := rfl; omega

theorem emb0_7 (t : Fin cfg0.N) (y : ((cfg0.win 7).xblock (cfg0.grid.coords t)).Idx) :
    ((cfg0.win 7).blk t).view.emb y = y := by
  funext a; apply Fin.ext
  match a with
  | ⟨0, _⟩ => show win0_7.index t (0 : Fin 2) * 16 + 1 * (y 0).val = (y 0).val; have e : win0_7.index t (0 : Fin 2) = 0 := rfl; omega
  | ⟨1, _⟩ => show win0_7.index t (1 : Fin 2) * 64 + 1 * (y 1).val = (y 1).val; have e : win0_7.index t (1 : Fin 2) = 0 := rfl; omega

/-! So each input window's block at the one point is the whole array as the region finds it. -/

theorem iblk0_0 (c : Dev nD) (t : Fin cfg0.N) : iblk0 V c 0 t = V c main_arg0 := by
  funext y
  show V c main_arg0 (((cfg0.win 0).blk t).view.emb y) = V c main_arg0 y
  rw [emb0_0]

theorem iblk0_1 (c : Dev nD) (t : Fin cfg0.N) : iblk0 V c 1 t = V c main_arg1 := by
  funext y
  show V c main_arg1 (((cfg0.win 1).blk t).view.emb y) = V c main_arg1 y
  rw [emb0_1]

theorem iblk0_2 (c : Dev nD) (t : Fin cfg0.N) : iblk0 V c 2 t = V c main_arg2 := by
  funext y
  show V c main_arg2 (((cfg0.win 2).blk t).view.emb y) = V c main_arg2 y
  rw [emb0_2]

theorem iblk0_3 (c : Dev nD) (t : Fin cfg0.N) : iblk0 V c 3 t = V c main_arg3 := by
  funext y
  show V c main_arg3 (((cfg0.win 3).blk t).view.emb y) = V c main_arg3 y
  rw [emb0_3]

theorem iblk0_4 (c : Dev nD) (t : Fin cfg0.N) : iblk0 V c 4 t = V c main_arg4 := by
  funext y
  show V c main_arg4 (((cfg0.win 4).blk t).view.emb y) = V c main_arg4 y
  rw [emb0_4]

theorem iblk0_5 (c : Dev nD) (t : Fin cfg0.N) : iblk0 V c 5 t = V c main_arg5 := by
  funext y
  show V c main_arg5 (((cfg0.win 5).blk t).view.emb y) = V c main_arg5 y
  rw [emb0_5]

theorem iblk0_6 (c : Dev nD) (t : Fin cfg0.N) : iblk0 V c 6 t = V c main_arg6 := by
  funext y
  show V c main_arg6 (((cfg0.win 6).blk t).view.emb y) = V c main_arg6 y
  rw [emb0_6]

/-- The environment projection of the arrays the region finds: the body's stored value of the whole arrays. -/
def envOf (c : Dev nD) : S16x64.Idx → Elt F .f32 :=
  out0_7 (V c main_arg0) (V c main_arg1) (V c main_arg2) (V c main_arg3) (V c main_arg4) (V c main_arg5) (V c main_arg6)

/-- What the one point writes back is the whole of `envOf`. -/
theorem flushed7_eq (c : Dev nD) (t : Fin cfg0.N) :
    (dat0 V c).flushed 7 t = ((cfg0.win 7).blk t).view.read (Elt F) (envOf V c) := by
  show (cfg0.win 7).cut (grid0.coords t) ((dat0 V c).after 7 t) = _
  rw [after0_7, iblk0_0, iblk0_1, iblk0_2, iblk0_3, iblk0_4, iblk0_5, iblk0_6]
  funext y
  show envOf V c y = envOf V c (((cfg0.win 7).blk t).view.emb y)
  rw [emb0_7]

/-- Every index of the result array is in the one point's block. -/
theorem mem_blk7 (t : Fin cfg0.N) (i : S16x64.Idx) : i ∈ ((cfg0.win 7).blk t).view.set := by
  show i ∈ ((View.whole main_v0).slice (win0_7.rect t)).set
  rw [View.set_slice_whole, Rect.mem_set_unit]
  intro a
  match a with
  | ⟨0, _⟩ =>
    show win0_7.index t (0 : Fin 2) * 16 ≤ (i 0).val ∧ (i 0).val < win0_7.index t (0 : Fin 2) * 16 + 16
    have e : win0_7.index t (0 : Fin 2) = 0 := rfl
    have h : (i 0).val < 16 := (i 0).isLt
    omega
  | ⟨1, _⟩ =>
    show win0_7.index t (1 : Fin 2) * 64 ≤ (i 1).val ∧ (i 1).val < win0_7.index t (1 : Fin 2) * 64 + 64
    have e : win0_7.index t (1 : Fin 2) = 0 := rfl
    have h : (i 1).val < 64 := (i 1).isLt
    omega

theorem cover7 (i : S16x64.Idx) : ∃ t : Fin cfg0.N, (cfg0.win 7).flush t = true ∧ i ∈ ((cfg0.win 7).blk t).view.set :=
  ⟨⟨0, Nat.one_pos⟩, flush0_7 _, mem_blk7 _ i⟩

/-- THE RESULT ARRAY after the first region: the environment projection of the arrays the region found. -/
theorem env_final (c : Dev nD) : (dat0 V c).arrAt 7 cfg0.N = envOf V c :=
  (dat0 V c).arrAt_eq_of_cover 7 _ (fun t _ => flushed7_eq V c t) (cover7)

end Cert.KernelIdeal.EnvValue

end
-- ==== Proof.LibColumnJoin.lean ====
/-
  Two general facts used to read a matrix product whose operands are joined along the feature axis.

  * Joining an [R, A] matrix u and an [R, B] matrix v along axis 1 gives an [R, N] matrix (N = A + B) whose entry (r, c)
    is u (r, c) for c < A and v (r, c − A) for A ≤ c (`join_cols_left`, `join_cols_right`).
  * In any commutative additive monoid, a sum over n + m consecutive indices is the sum over the first n plus the sum over
    the last m (`sum_fin_split`), with the two ranges given as explicit `Fin N` values so that no index type has to be
    spelt as a sum.
-/
import Idealize.ShloMosaic.Lib.Pipeline.Value
import Idealize.ShloMosaic.Lib.ValueIdx

noncomputable section

namespace Idealize.ShloMosaic.ColumnJoin

open Idealize.ShloMosaic Idealize.ShloMosaic.ValueIdx

variable {α : Type}

/-- Entry (r, c) of [u | v], for a column c that falls in u: it is u (r, c). -/
theorem join_cols_left {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin A) (hc : c.val = d.val) :
    concatenate (⟨2, ![R, N]⟩ : Shape) 1 [⟨⟨2, ![R, A]⟩, u⟩, ⟨⟨2, ![R, B]⟩, v⟩] h (ix2 r c) = u (ix2 r d) :=
  concatenate_pair_apply_left 1 u v h (ix2 r c) rfl (ix2 r d) (fun b => match b with
    | ⟨0, _⟩ => rfl
    | ⟨1, _⟩ => hc.symm)

/-- Entry (r, c) of [u | v], for a column c past u's A columns: it is v (r, c − A). -/
theorem join_cols_right {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin B) (hc : c.val = A + d.val) :
    concatenate (⟨2, ![R, N]⟩ : Shape) 1 [⟨⟨2, ![R, A]⟩, u⟩, ⟨⟨2, ![R, B]⟩, v⟩] h (ix2 r c) = v (ix2 r d) :=
  concatenate_pair_apply_right 1 u v h (ix2 r c) rfl rfl (ix2 r d) (fun b hb => match b, hb with
    | ⟨0, _⟩, _ => rfl
    | ⟨1, _⟩, hb => absurd rfl hb)
    (by show d.val + A = c.val; omega)

/-- A sum over `N = n + m` indices is the sum over the first `n` plus the sum over the last `m`. -/
theorem sum_fin_split {M : Type*} [AddCommMonoid M] {N : Nat} (n m : Nat) (hN : N = n + m) (f : Fin N → M) :
    ∑ k : Fin N, f k
      = (∑ d : Fin n, f ⟨d.val, by have := d.isLt; omega⟩) + ∑ d : Fin m, f ⟨n + d.val, by have := d.isLt; omega⟩ := by
  subst hN
  exact Fin.sum_univ_add f

end Idealize.ShloMosaic.ColumnJoin

end
-- ==== Proof.Spec.lean ====
/-
  The function both programs compute, written once over plain coordinate functions.

  An environment encoder turns each of 16 samples into a 64-vector `env b`. For one grid node with the three spatial
  coordinates `sp`, a first layer gives 16 features  s j = max (bs1 j + ws1 j 0 · sp 0 + ws1 j 1 · sp 1 + ws1 j 2 · sp 2) 0,
  a second layer  sf k = max (Σ_j ws2t k j · s j + bs2 k) 0,  and the decoder's value for sample `b` is
      Σ_h max (Σ_k wd1st h k · sf k + env b h) 0 · wd2 h  +  bd2,
  the small vectors bs1, bs2, ws1, wd2, bd2 being columns 1, 2, 3–5, 0 and 6 of the packed 64 × 7 array `cols`.

  One program adds the column `env b h` after the 16-term contraction. The other stacks the 16 samples' weights into
  1024 rows of 17 entries, the 17th being `env b h`, appends a row of ones to `sf`, and takes ONE 17-term contraction:
  the last term is `env b h · 1`. Splitting the last term off a sum over 17 indices is the whole difference
  (`nodeStacked_eq_node`); no law that needs finite entries is involved.
-/
import Idealize.ShloMosaic.Lib.IdealHost
import Mathlib.Algebra.BigOperators.Fin

noncomputable section

namespace Cert.Spec

open Idealize.ShloMosaic

/-- The value every rectifier compares with: the f32 word of zero. -/
abbrev Z : EReal := Ideal.ofBits .f32 0x00000000#32

/-- The entry of the appended row of ones: the f32 word of one. -/
abbrev One : EReal := Ideal.ofBits .f32 0x3F800000#32

/-- Row `j` of the first 16 rows of the packed 64-row parameter array. -/
abbrev up (j : Fin 16) : Fin 64 := ⟨j.val, by have := j.isLt; omega⟩

/-- Row `64 b + h` of the 1024 stacked rows: sample `b`, hidden unit `h`. -/
abbrev row (b : Fin 16) (h : Fin 64) : Fin 1024 := ⟨64 * b.val + h.val, by have := b.isLt; have := h.isLt; omega⟩

/-- First spatial layer at one node: feature `j`. -/
def feat1 (cols : Fin 64 → Fin 7 → EReal) (sp : Fin 3 → EReal) (j : Fin 16) : EReal :=
  max (((cols (up j) 1 + cols (up j) 3 * sp 0) + cols (up j) 4 * sp 1) + cols (up j) 5 * sp 2) Z

/-- Second spatial layer at one node: feature `k`. -/
def feat2 (ws2t : Fin 16 → Fin 16 → EReal) (cols : Fin 64 → Fin 7 → EReal) (sp : Fin 3 → EReal) (k : Fin 16) : EReal :=
  max ((∑ j : Fin 16, ws2t k j * feat1 cols sp j) + cols (up k) 2) Z

/-- The decoder's value at one node for sample `b`, the sample's column added after the contraction. -/
def node (env : Fin 16 → Fin 64 → EReal) (ws2t : Fin 16 → Fin 16 → EReal) (wd1st : Fin 64 → Fin 16 → EReal)
    (cols : Fin 64 → Fin 7 → EReal) (sp : Fin 3 → EReal) (b : Fin 16) : EReal :=
  (∑ h : Fin 64, max ((∑ k : Fin 16, wd1st h k * feat2 ws2t cols sp k) + env b h) Z * cols h 0) + cols 0 6

/-- The second layer's features with a one appended: entry `k` for `k < 16`, one at `k = 16`. -/
def feat2One (ws2t : Fin 16 → Fin 16 → EReal) (cols : Fin 64 → Fin 7 → EReal) (sp : Fin 3 → EReal) (k : Fin 17) : EReal :=
  if hk : k.val < 16 then feat2 ws2t cols sp ⟨k.val, hk⟩ else One

/-- The decoder's value at one node for sample `b` from the stacked weights: one 17-term contraction per row. -/
def nodeStacked (waug : Fin 1024 → Fin 17 → EReal) (ws2t : Fin 16 → Fin 16 → EReal) (cols : Fin 64 → Fin 7 → EReal)
    (wd2t : Fin 1024 → EReal) (sp : Fin 3 → EReal) (b : Fin 16) : EReal :=
  (∑ h : Fin 64, max (∑ k : Fin 17, waug (row b h) k * feat2One ws2t cols sp k) Z * wd2t (row b h)) + cols 0 6

/-- When the stacked rows hold `[wd1st h · | env b h]` and the tiled head weight holds `wd2 h`, the stacked form is the
    plain one: the 17th term of each contraction is `env b h · 1`. -/
theorem nodeStacked_eq_node (waug : Fin 1024 → Fin 17 → EReal) (wd2t : Fin 1024 → EReal)
    (env : Fin 16 → Fin 64 → EReal) (ws2t : Fin 16 → Fin 16 → EReal) (wd1st : Fin 64 → Fin 16 → EReal)
    (cols : Fin 64 → Fin 7 → EReal) (sp : Fin 3 → EReal) (b : Fin 16)
    (hw : ∀ (h : Fin 64) (k : Fin 16), waug (row b h) k.castSucc = wd1st h k)
    (he : ∀ h : Fin 64, waug (row b h) (Fin.last 16) = env b h)
    (hd : ∀ h : Fin 64, wd2t (row b h) = cols h 0) :
    nodeStacked waug ws2t cols wd2t sp b = node env ws2t wd1st cols sp b := by
  unfold nodeStacked node
  refine congrArg (· + cols 0 6) (Finset.sum_congr rfl fun h _ => ?_)
  rw [hd h, Fin.sum_univ_castSucc, he h]
  have h1 : feat2One ws2t cols sp (Fin.last 16) = 1 := by
    unfold feat2One
    rw [dif_neg (by simp)]
    exact Ideal.ofBits_one_f32
  have h2 : ∀ k : Fin 16, waug (row b h) k.castSucc * feat2One ws2t cols sp k.castSucc
      = wd1st h k * feat2 ws2t cols sp k := fun k => by
    rw [hw h k]
    unfold feat2One
    rw [dif_pos (by simp)]
    rfl
  rw [h1, mul_one, Finset.sum_congr rfl fun k _ => h2 k]

end Cert.Spec

end
-- ==== Proof.KernelHost.lean ====
/-
  The arrays the second region of the stacked program finds, read at an index.

  Between the two regions the host lays out three arrays from the launch arrays and the environment projection `env`:
    * the stacked weight, 1024 rows of 17: row 64·b + h is the row h of the decoder weight `wd1st` (the 64 × 16 array
      given unit axes, repeated over the 16 samples and flattened) followed by the one entry `env (b, h)` (the 16 × 64
      projection flattened to a column);
    * the tiled head weight, 1024 rows of 1: row 64·b + h is entry (h, 0) of the packed parameters;
    * the spatial coordinates padded on the right to a multiple of the tile: inside the original extent a padded entry
      is the original entry.
  The other two arrays the region reads are launch arrays no operation has written.
-/
import proofs.«154920_g2000706510910109_pallasbulk_1191_3_alg».proof.Proof.KernelEnv
import proofs.«154920_g2000706510910109_pallasbulk_1191_3_alg».proof.Proof.LibColumnJoin
import proofs.«154920_g2000706510910109_pallasbulk_1191_3_alg».proof.Proof.Spec
import Idealize.ShloMosaic.Lib.StableHlo.Run
import Idealize.ShloMosaic.Lib.ValueLayout
import Idealize.ShloMosaic.Lib.KernelVsHost

set_option maxRecDepth 16384

noncomputable section

namespace Cert.KernelIdeal.HostValue

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]
variable (m : (ℓ : Loc nD τ sig) → Buf (Elt F) ℓ) (ρ : Dev nD → PrngReg)

/-- The environment projection of the launch arrays. -/
abbrev env (c : Dev nD) : S16x64.Idx → Elt F .f32 := EnvValue.envOf (V0 m ρ) c

/-- After the first region its result array holds the environment projection. -/
theorem w1_v0 (c : Dev nD) : W1 m ρ c (Proc.devRef .tc main_v0) = env m ρ c :=
  (W1_arr m ρ c 7).trans (EnvValue.env_final (V0 m ρ) c)

/-! ## The launch arrays the host stretches read are as launched -/

theorem w1_arg8 (c : Dev nD) : W1 m ρ c (Proc.devRef .tc main_arg8) = m ((c : Thread nD τ).loc main_arg8) :=
  W1_of_ne m ρ c main_arg8 (by decide)
theorem w1_arg10 (c : Dev nD) : W1 m ρ c (Proc.devRef .tc main_arg10) = m ((c : Thread nD τ).loc main_arg10) :=
  W1_of_ne m ρ c main_arg10 (by decide)
theorem w1_arg7 (c : Dev nD) : W1 m ρ c (Proc.devRef .tc main_arg7) = m ((c : Thread nD τ).loc main_arg7) :=
  W1_of_ne m ρ c main_arg7 (by decide)
theorem w1_arg9 (c : Dev nD) : W1 m ρ c (Proc.devRef .tc main_arg9) = m ((c : Thread nD τ).loc main_arg9) :=
  W1_of_ne m ρ c main_arg9 (by decide)

/-! ## The arrays at the second region's entry, as the host operations' terms -/

/-- The stacked weight: the repeated decoder weight joined with the flattened projection. -/
theorem v5_eq (c : Dev nD) : V3 m ρ c main_v5
    = concatenate S1024x17 1
        [⟨S1024x16, shapeCast S1024x16
            (broadcastInDim S16x64x1x16 ![0, 1, 2, 3] bcast_S1x64x1x16_S16x64x1x16_0_1_2_3
              (shapeCast S1x64x1x16 (m ((c : Thread nD τ).loc main_arg8)) shapeCasts_S64x16_S1x64x1x16))
            shapeCasts_S16x64x1x16_S1024x16⟩,
         ⟨S1024x1, shapeCast S1024x1 (env m ρ c) shapeCasts_S16x64_S1024x1⟩]
        concatenates_S1024x16_S1024x1_S1024x17_d1 := by
  show StableHlo.after hostOps1_1 (StableHlo.after hostOps1 (W1 m ρ c)) (Proc.devRef .tc main_v5) = _
  after_results
  rw [w1_arg8, w1_v0]
  rfl

/-- The tiled head weight: column 0 of the packed parameters, repeated over the samples. -/
theorem v9_eq (c : Dev nD) : V3 m ρ c main_v9
    = shapeCast S1024x1
        (broadcastInDim S16x64x1x1 ![0, 1, 2, 3] bcast_S1x64x1x1_S16x64x1x1_0_1_2_3
          (shapeCast S1x64x1x1
            (extractStridedSlice S64x1 ![0, 0] (m ((c : Thread nD τ).loc main_arg9)) slices_S64x7_S64x1_0_0)
            shapeCasts_S64x1_S1x64x1x1))
        shapeCasts_S16x64x1x1_S1024x1 := by
  show StableHlo.after hostOps1_1 (StableHlo.after hostOps1 (W1 m ρ c)) (Proc.devRef .tc main_v9) = _
  after_results
  rw [w1_arg9]
  rfl

/-- The padded coordinates: the launch coordinates padded on the right with the converted integer zero. -/
theorem v10_eq (c : Dev nD) : V3 m ρ c main_v10
    = pad S3x1400832 ![0, 0] ![0, 832] ![0, 0] (m ((c : Thread nD τ).loc main_arg10))
        (sitofp (F := F) .f32 (constantI S_ 32 0#32)) pads_S3x1400000_S3x1400832_000_08320 h_S_ := by
  show StableHlo.after hostOps1_1 (StableHlo.after hostOps1 (W1 m ρ c)) (Proc.devRef .tc main_v10) = _
  after_results
  rw [show W1 m ρ c (Proc.devRef .tc (TRef.of main_arg10 (T := ⟨S3x1400000, .f32⟩)).ref)
        = m ((c : Thread nD τ).loc main_arg10) from w1_arg10 m ρ c]
  rfl

theorem arg7_eq (c : Dev nD) : V3 m ρ c main_arg7 = m ((c : Thread nD τ).loc main_arg7) := by
  show StableHlo.after hostOps1_1 (StableHlo.after hostOps1 (W1 m ρ c)) (Proc.devRef .tc main_arg7) = _
  after_results
  exact w1_arg7 m ρ c

theorem arg9_eq (c : Dev nD) : V3 m ρ c main_arg9 = m ((c : Thread nD τ).loc main_arg9) := by
  show StableHlo.after hostOps1_1 (StableHlo.after hostOps1 (W1 m ρ c)) (Proc.devRef .tc main_arg9) = _
  after_results
  exact w1_arg9 m ρ c

/-! ## Read at an index -/

/-- Row 64·b + h of the stacked weight, column k < 16: entry (h, k) of the decoder weight. -/
theorem v5_left (c : Dev nD) (b : Fin 16) (h : Fin 64) (k : Fin 16) :
    V3 m ρ c main_v5 (ix2 (Cert.Spec.row b h) k.castSucc) = m ((c : Thread nD τ).loc main_arg8) (ix2 h k) := by
  rw [v5_eq]
  refine (ColumnJoin.join_cols_left _ _ concatenates_S1024x16_S1024x1_S1024x17_d1 (Cert.Spec.row b h) k.castSucc k rfl).trans ?_
  refine (shapeCast_apply _ shapeCasts_S16x64x1x16_S1024x16 (ix2 (Cert.Spec.row b h) k) (ix4 b h (0 : Fin 1) k) ?_).trans ?_
  · rw [Shape.rowMajor_val_four, Shape.rowMajor_val_two]
    show ((b.val * 64 + h.val) * 1 + 0) * 16 + k.val = (64 * b.val + h.val) * 16 + k.val
    omega
  refine (broadcastInDim_apply _ bcast_S1x64x1x16_S16x64x1x16_0_1_2_3 _ (ix4 b h (0 : Fin 1) k) (ix4 (0 : Fin 1) h (0 : Fin 1) k) ?_).trans ?_
  · intro a
    match a with
    | ⟨0, _⟩ => rfl
    | ⟨1, _⟩ => rfl
    | ⟨2, _⟩ => rfl
    | ⟨3, _⟩ => rfl
  refine shapeCast_apply _ shapeCasts_S64x16_S1x64x1x16 (ix4 (0 : Fin 1) h (0 : Fin 1) k) (ix2 h k) ?_
  rw [Shape.rowMajor_val_four, Shape.rowMajor_val_two]
  show h.val * 16 + k.val = ((0 * 64 + h.val) * 1 + 0) * 16 + k.val
  omega

/-- Row 64·b + h of the stacked weight, last column: entry (b, h) of the environment projection. -/
theorem v5_right (c : Dev nD) (b : Fin 16) (h : Fin 64) :
    V3 m ρ c main_v5 (ix2 (Cert.Spec.row b h) (Fin.last 16)) = env m ρ c (ix2 b h) := by
  rw [v5_eq]
  refine (ColumnJoin.join_cols_right _ _ concatenates_S1024x16_S1024x1_S1024x17_d1 (Cert.Spec.row b h) (Fin.last 16) (0 : Fin 1) rfl).trans ?_
  refine shapeCast_apply _ shapeCasts_S16x64_S1024x1 (ix2 (Cert.Spec.row b h) (0 : Fin 1)) (ix2 b h) ?_
  rw [Shape.rowMajor_val_two, Shape.rowMajor_val_two]
  show b.val * 64 + h.val = (64 * b.val + h.val) * 1 + 0
  omega

/-- Row 64·b + h of the tiled head weight: entry (h, 0) of the packed parameters. -/
theorem v9_at (c : Dev nD) (b : Fin 16) (h : Fin 64) :
    V3 m ρ c main_v9 (ix2 (Cert.Spec.row b h) (0 : Fin 1)) = m ((c : Thread nD τ).loc main_arg9) (ix2 h (0 : Fin 7)) := by
  rw [v9_eq]
  refine (shapeCast_apply _ shapeCasts_S16x64x1x1_S1024x1 (ix2 (Cert.Spec.row b h) (0 : Fin 1)) (ix4 b h (0 : Fin 1) (0 : Fin 1)) ?_).trans ?_
  · rw [Shape.rowMajor_val_four, Shape.rowMajor_val_two]
    show ((b.val * 64 + h.val) * 1 + 0) * 1 + 0 = (64 * b.val + h.val) * 1 + 0
    omega
  refine (broadcastInDim_apply _ bcast_S1x64x1x1_S16x64x1x1_0_1_2_3 _ (ix4 b h (0 : Fin 1) (0 : Fin 1)) (ix4 (0 : Fin 1) h (0 : Fin 1) (0 : Fin 1)) ?_).trans ?_
  · intro a
    match a with
    | ⟨0, _⟩ => rfl
    | ⟨1, _⟩ => rfl
    | ⟨2, _⟩ => rfl
    | ⟨3, _⟩ => rfl
  refine (shapeCast_apply _ shapeCasts_S64x1_S1x64x1x1 (ix4 (0 : Fin 1) h (0 : Fin 1) (0 : Fin 1)) (ix2 h (0 : Fin 1)) ?_).trans ?_
  · rw [Shape.rowMajor_val_four, Shape.rowMajor_val_two]
    show h.val * 1 + 0 = ((0 * 64 + h.val) * 1 + 0) * 1 + 0
    omega
  refine extractStridedSlice_apply _ _ slices_S64x7_S64x1_0_0 (ix2 h (0 : Fin 1)) (ix2 h (0 : Fin 7)) ?_
  intro a
  match a with
  | ⟨0, _⟩ => show h.val = 0 + h.val; omega
  | ⟨1, _⟩ => rfl

/-- Inside the original extent a padded coordinate is the launch coordinate. -/
theorem v10_at (c : Dev nD) (a : Fin 3) (n : Fin 1400832) (n' : Fin 1400000) (hn : n.val = n'.val) :
    V3 m ρ c main_v10 (ix2 a n) = m ((c : Thread nD τ).loc main_arg10) (ix2 a n') := by
  rw [v10_eq]
  refine pad_apply_of_inside _ _ _ _ _ pads_S3x1400000_S3x1400832_000_08320 h_S_ (ix2 a n) (ix2 a n') ?_
  intro a'
  match a' with
  | ⟨0, _⟩ => show a.val = 0 + a.val * (0 + 1); omega
  | ⟨1, _⟩ => show n.val = 0 + n'.val * (0 + 1); omega

end Cert.KernelIdeal.HostValue

end
-- ==== Proof.KernelArray.lean ====
/-
  The result of the stacked program, entry by entry.

  The second kernel runs over 1368 tiles of 1024 nodes. At tile t it reads the whole small arrays and columns
  1024·t … 1024·t + 1023 of the padded coordinates, and writes the 16 × 1024 block of the output at the same columns.
  Entry (b, q) of the block is the decoder's value for sample b at node 1024·t + q, so every block is the restriction of
  ONE function of the whole arrays; the blocks tile the padded output, which therefore ends holding that function.
  The last host operation cuts the padding off, and inside the original extent a padded coordinate is the launch
  coordinate: entry (b, n) of the result is the decoder's value for sample b at node n of the launch arrays.
-/
import proofs.«154920_g2000706510910109_pallasbulk_1191_3_alg».proof.Proof.KernelHost
import proofs.«154920_g2000706510910109_pallasbulk_1191_3_alg».proof.Proof.Spec
import Idealize.ShloMosaic.Lib.Pipeline.Value
import Idealize.ShloMosaic.Lib.StableHlo.Run

set_option maxRecDepth 16384

noncomputable section

namespace Cert.KernelIdeal.NodeValue

open Idealize.ShloMosaic Idealize.ShloMosaic.TcCoe Idealize.SL.Sem Idealize.ShloMosaic.StableHlo
open Idealize.ShloMosaic.ValueIdx
open Idealize.ShloMosaic.Pipeline (Dat Cfg Window)
open Cert.KernelIdeal Cert.KernelIdeal.Gen

/-! ## The printed index maps, decided over the grid -/

theorem idx_facts : ∀ t : Fin cfg1.N,
    win1_0.index t (0 : Fin 2) = 0 ∧ win1_0.index t (1 : Fin 2) = 0 ∧
    win1_1.index t (0 : Fin 2) = 0 ∧ win1_1.index t (1 : Fin 2) = t.val ∧
    win1_2.index t (0 : Fin 2) = 0 ∧ win1_2.index t (1 : Fin 2) = 0 ∧
    win1_3.index t (0 : Fin 2) = 0 ∧ win1_3.index t (1 : Fin 2) = 0 ∧
    win1_4.index t (0 : Fin 2) = 0 ∧ win1_4.index t (1 : Fin 2) = 0 ∧
    win1_5.index t (0 : Fin 2) = 0 ∧ win1_5.index t (1 : Fin 2) = t.val :=
  (by decide +kernel : ∀ t : Fin grid1.N, _)

section Blocks
variable {F : FTy → Type} [FloatOps F]
variable (V : (c : Dev nD) → (b : Ref sig .tc) → Buf (Elt F) ((c : Thread nD τ).loc b))

/-! ## Each window's block at a tile, read off its array -/

theorem iblk1_0 (c : Dev nD) (t : Fin cfg1.N) : iblk1 V c 0 t = V c main_v5 := by
  funext y
  show V c main_v5 (((cfg1.win 0).blk t).view.emb y) = V c main_v5 y
  refine congrArg _ (funext fun a => Fin.ext ?_)
  have e0 : win1_0.index t (0 : Fin 2) = 0 := (idx_facts t).1
  have e1 : win1_0.index t (1 : Fin 2) = 0 := (idx_facts t).2.1
  match a with
  | ⟨0, _⟩ => show win1_0.index t (0 : Fin 2) * 1024 + 1 * (y 0).val = (y 0).val; omega
  | ⟨1, _⟩ => show win1_0.index t (1 : Fin 2) * 17 + 1 * (y 1).val = (y 1).val; omega

theorem iblk1_1 (c : Dev nD) (t : Fin cfg1.N) (a : Fin 3) (q : Fin 1024) (n : Fin 1400832) (hn : n.val = 1024 * t.val + q.val) :
    iblk1 V c 1 t (ix2 a q) = V c main_v10 (ix2 a n) := by
  show V c main_v10 (((cfg1.win 1).blk t).view.emb (ix2 a q)) = V c main_v10 (ix2 a n)
  refine congrArg _ (funext fun a' => Fin.ext ?_)
  have e0 : win1_1.index t (0 : Fin 2) = 0 := (idx_facts t).2.2.1
  have e1 : win1_1.index t (1 : Fin 2) = t.val := (idx_facts t).2.2.2.1
  match a' with
  | ⟨0, _⟩ => show win1_1.index t (0 : Fin 2) * 3 + 1 * a.val = a.val; omega
  | ⟨1, _⟩ => show win1_1.index t (1 : Fin 2) * 1024 + 1 * q.val = n.val; omega

theorem iblk1_2 (c : Dev nD) (t : Fin cfg1.N) : iblk1 V c 2 t = V c main_arg7 := by
  funext y
  show V c main_arg7 (((cfg1.win 2).blk t).view.emb y) = V c main_arg7 y
  refine congrArg _ (funext fun a => Fin.ext ?_)
  have e0 : win1_2.index t (0 : Fin 2) = 0 := (idx_facts t).2.2.2.2.1
  have e1 : win1_2.index t (1 : Fin 2) = 0 := (idx_facts t).2.2.2.2.2.1
  match a with
  | ⟨0, _⟩ => show win1_2.index t (0 : Fin 2) * 16 + 1 * (y 0).val = (y 0).val; omega
  | ⟨1, _⟩ => show win1_2.index t (1 : Fin 2) * 16 + 1 * (y 1).val = (y 1).val; omega

theorem iblk1_3 (c : Dev nD) (t : Fin cfg1.N) : iblk1 V c 3 t = V c main_arg9 := by
  funext y
  show V c main_arg9 (((cfg1.win 3).blk t).view.emb y) = V c main_arg9 y
  refine congrArg _ (funext fun a => Fin.ext ?_)
  have e0 : win1_3.index t (0 : Fin 2) = 0 := (idx_facts t).2.2.2.2.2.2.1
  have e1 : win1_3.index t (1 : Fin 2) = 0 := (idx_facts t).2.2.2.2.2.2.2.1
  match a with
  | ⟨0, _⟩ => show win1_3.index t (0 : Fin 2) * 64 + 1 * (y 0).val = (y 0).val; omega
  | ⟨1, _⟩ => show win1_3.index t (1 : Fin 2) * 7 + 1 * (y 1).val = (y 1).val; omega

theorem iblk1_4 (c : Dev nD) (t : Fin cfg1.N) : iblk1 V c 4 t = V c main_v9 := by
  funext y
  show V c main_v9 (((cfg1.win 4).blk t).view.emb y) = V c main_v9 y
  refine congrArg _ (funext fun a => Fin.ext ?_)
  have e0 : win1_4.index t (0 : Fin 2) = 0 := (idx_facts t).2.2.2.2.2.2.2.2.1
  have e1 : win1_4.index t (1 : Fin 2) = 0 := (idx_facts t).2.2.2.2.2.2.2.2.2.1
  match a with
  | ⟨0, _⟩ => show win1_4.index t (0 : Fin 2) * 1024 + 1 * (y 0).val = (y 0).val; omega
  | ⟨1, _⟩ => show win1_4.index t (1 : Fin 2) * 1 + 1 * (y 1).val = (y 1).val; omega

/-- Entry (b, q) of the output block at tile t sits in the output array at (b, 1024·t + q). -/
theorem emb5 (t : Fin cfg1.N) (b : Fin 16) (q : Fin 1024) (n : Fin 1400832) (hn : n.val = 1024 * t.val + q.val) :
    ((cfg1.win 5).blk t).view.emb (ix2 b q) = ix2 b n := by
  funext a'; apply Fin.ext
  have e0 : win1_5.index t (0 : Fin 2) = 0 := (idx_facts t).2.2.2.2.2.2.2.2.2.2.1
  have e1 : win1_5.index t (1 : Fin 2) = t.val := (idx_facts t).2.2.2.2.2.2.2.2.2.2.2
  match a' with
  | ⟨0, _⟩ => show win1_5.index t (0 : Fin 2) * 16 + 1 * b.val = b.val; omega
  | ⟨1, _⟩ => show win1_5.index t (1 : Fin 2) * 1024 + 1 * q.val = n.val; omega

/-- An index of the output array is in tile t's block iff each coordinate is in the block's range. -/
theorem mem_blk5 (t : Fin cfg1.N) (i : S16x1400832.Idx) :
    i ∈ ((cfg1.win 5).blk t).view.set ↔ ∀ a : Fin 2, win1_5.index t a * S16x1024.size a ≤ (i a).val ∧ (i a).val < win1_5.index t a * S16x1024.size a + S16x1024.size a := by
  show i ∈ ((View.whole main_v11).slice (win1_5.rect t)).set ↔ _
  rw [View.set_slice_whole, Rect.mem_set_unit]
  exact Iff.rfl

/-- The blocks tile the output array: column n is in tile n / 1024. -/
theorem cover5 (i : S16x1400832.Idx) : ∃ t : Fin cfg1.N, (cfg1.win 5).flush t = true ∧ i ∈ ((cfg1.win 5).blk t).view.set := by
  have h0 : (i 0).val < 16 := (i 0).isLt
  have h1 : (i 1).val < 1400832 := (i 1).isLt
  refine ⟨⟨(i 1).val / 1024, by show (i 1).val / 1024 < 1368; omega⟩, flush1_5 _, ?_⟩
  rw [mem_blk5]
  have e0 := (idx_facts ⟨(i 1).val / 1024, by show (i 1).val / 1024 < 1368; omega⟩).2.2.2.2.2.2.2.2.2.2.1
  have e1 := (idx_facts ⟨(i 1).val / 1024, by show (i 1).val / 1024 < 1368; omega⟩).2.2.2.2.2.2.2.2.2.2.2
  intro a
  match a with
  | ⟨0, _⟩ =>
    show win1_5.index _ (0 : Fin 2) * 16 ≤ (i 0).val ∧ (i 0).val < win1_5.index _ (0 : Fin 2) * 16 + 16
    rw [e0]; omega
  | ⟨1, _⟩ =>
    show win1_5.index _ (1 : Fin 2) * 1024 ≤ (i 1).val ∧ (i 1).val < win1_5.index _ (1 : Fin 2) * 1024 + 1024
    rw [e1]; show (i 1).val / 1024 * 1024 ≤ (i 1).val ∧ (i 1).val < (i 1).val / 1024 * 1024 + 1024; omega

end Blocks

/-! ## The output array and the result -/

variable (m : (ℓ : Loc nD τ sig) → Buf (Elt Ideal) ℓ) (ρ : Dev nD → PrngReg)

/-- What the node body computes, stated over its five blocks at an entry (proved where the body is read). -/
def BodyAt : Prop :=
  ∀ (x0 : Vec Ideal S1024x17 .f32) (x1 : Vec Ideal S3x1024 .f32) (x2 : Vec Ideal S16x16 .f32) (x3 : Vec Ideal S64x7 .f32)
    (x4 : Vec Ideal S1024x1 .f32) (b : Fin 16) (q : Fin 1024),
    out1_5 (F := Ideal) x0 x1 x2 x3 x4 (ix2 b q)
      = Cert.Spec.nodeStacked (fun r k => x0 (ix2 r k)) (fun i j => x2 (ix2 i j)) (fun h j => x3 (ix2 h j))
          (fun r => x4 (ix2 r (0 : Fin 1))) (fun a => x1 (ix2 a q)) b

/-- The decoder's value for sample `b` at the node whose coordinates are `sp`, from the launch arrays. -/
def nodeOf (c : Dev nD) (sp : Fin 3 → EReal) (b : Fin 16) : EReal :=
  Cert.Spec.node (fun b h => HostValue.env m ρ c (ix2 b h)) (fun i j => m ((c : Thread nD τ).loc main_arg7) (ix2 i j))
    (fun h k => m ((c : Thread nD τ).loc main_arg8) (ix2 h k)) (fun h j => m ((c : Thread nD τ).loc main_arg9) (ix2 h j)) sp b

/-- The padded output array: entry (b, n) is the value at the padded node n. -/
def G (c : Dev nD) : S16x1400832.Idx → EReal :=
  fun i => nodeOf m ρ c (fun a => V3 m ρ c main_v10 (ix2 a (i 1))) (i 0)

/-- What tile t writes back is block t of `G`. -/
theorem flushed5_eq (hbody : BodyAt) (c : Dev nD) (t : Fin cfg1.N) :
    (dat1 (V3 m ρ) c).flushed 5 t = ((cfg1.win 5).blk t).view.read (Elt Ideal) (G m ρ c) := by
  show (cfg1.win 5).cut (grid1.coords t) ((dat1 (V3 m ρ) c).after 5 t) = _
  rw [after1_5, iblk1_0, iblk1_2, iblk1_3, iblk1_4]
  funext y
  obtain ⟨b, q, rfl⟩ : ∃ (b : Fin 16) (q : Fin 1024), y = ix2 b q := ⟨y 0, y 1, eq_ix2 y⟩
  have hq : 1024 * t.val + q.val < 1400832 := by
    have ht : t.val < 1368 := t.isLt
    have hq' : q.val < 1024 := q.isLt
    omega
  show out1_5 (F := Ideal) (V3 m ρ c main_v5) (iblk1 (V3 m ρ) c 1 t) (V3 m ρ c main_arg7) (V3 m ρ c main_arg9) (V3 m ρ c main_v9) (ix2 b q)
    = G m ρ c (((cfg1.win 5).blk t).view.emb (ix2 b q))
  rw [emb5 t b q ⟨1024 * t.val + q.val, hq⟩ rfl]
  refine (hbody _ _ _ _ _ b q).trans ?_
  show _ = nodeOf m ρ c (fun a => V3 m ρ c main_v10 (ix2 a ⟨1024 * t.val + q.val, hq⟩)) b
  have hsp : (fun a : Fin 3 => iblk1 (V3 m ρ) c 1 t (ix2 a q))
      = fun a => V3 m ρ c main_v10 (ix2 a ⟨1024 * t.val + q.val, hq⟩) :=
    funext fun a => iblk1_1 (V3 m ρ) c t a q ⟨1024 * t.val + q.val, hq⟩ rfl
  rw [hsp, HostValue.arg7_eq, HostValue.arg9_eq]
  exact Cert.Spec.nodeStacked_eq_node _ _ _ _ _ _ _ b
    (fun h k => HostValue.v5_left m ρ c b h k) (fun h => HostValue.v5_right m ρ c b h) (fun h => HostValue.v9_at m ρ c b h)

/-- THE PADDED OUTPUT ARRAY after the second region. -/
theorem final5 (hbody : BodyAt) (c : Dev nD) : (dat1 (V3 m ρ) c).arrAt 5 cfg1.N = G m ρ c :=
  (dat1 (V3 m ρ) c).arrAt_eq_of_cover 5 _ (fun t _ => flushed5_eq m ρ hbody c t) cover5

/-- THE RESULT, entry by entry: the decoder's value for sample b at node n of the launch coordinates. -/
theorem result_at (hbody : BodyAt) (c : Dev nD) (b : Fin 16) (n : Fin 1400000) :
    W5 m ρ c (Proc.devRef .tc main_v12) (ix2 b n)
      = nodeOf m ρ c (fun a => m ((c : Thread nD τ).loc main_arg10) (ix2 a n)) b := by
  have hn : n.val < 1400832 := by have := n.isLt; omega
  have e : W5 m ρ c (Proc.devRef .tc main_v12)
      = extractStridedSlice S16x1400000 ![0, 0] (G m ρ c) slices_S16x1400832_S16x1400000_0_0 := by
    show StableHlo.after hostOps2 (W4 m ρ c) (Proc.devRef .tc main_v12) = _
    after_results
    rw [show W4 m ρ c (Proc.devRef .tc main_v11) = G m ρ c from (W4_arr m ρ c 5).trans (final5 m ρ hbody c)]
  rw [e]
  refine (extractStridedSlice_apply _ _ slices_S16x1400832_S16x1400000_0_0 (ix2 b n) (ix2 b (⟨n.val, hn⟩ : Fin 1400832)) ?_).trans ?_
  · intro a
    match a with
    | ⟨0, _⟩ => show b.val = 0 + b.val; omega
    | ⟨1, _⟩ => show n.val = 0 + n.val; omega
  show nodeOf m ρ c (fun a => V3 m ρ c main_v10 (ix2 a (⟨n.val, hn⟩ : Fin 1400832))) b = _
  exact congrArg (fun sp => nodeOf m ρ c sp b) (funext fun a => HostValue.v10_at m ρ c a ⟨n.val, hn⟩ n rfl)

end Cert.KernelIdeal.NodeValue

end
-- ==== Proof.ReferenceEnv.lean ====
/-
  What the first region leaves: the environment projection as one function of the launch arrays.

  The first kernel has no grid: its one point stages each whole argument array, the body computes
      relu (relu (x · w1 + b1) · w2 + b2) · wd1e + bd1
  from them and stores the 16 × 64 result, and the one write-back fills the whole result array. So after the region
  the result array is the body's value of the whole argument arrays.
-/
import proofs.«154920_g2000706510910109_pallasbulk_1191_3_alg».proof.Proof.Gen.ReferenceIdeal.Frame
import Idealize.ShloMosaic.Lib.Pipeline.Value

set_option maxRecDepth 16384

noncomputable section

namespace Cert.ReferenceIdeal.EnvValue

open Idealize.ShloMosaic Idealize.ShloMosaic.TcCoe Idealize.SL.Sem
open Idealize.ShloMosaic.Pipeline (Dat Cfg Window)
open Cert.ReferenceIdeal Cert.ReferenceIdeal.Gen

variable {F : FTy → Type} [FloatOps F]
variable (V : (c : Dev nD) → (b : Ref sig .tc) → Buf (Elt F) ((c : Thread nD τ).loc b))

/-! A block of a window that is its whole array sits in the array at its own coordinates: the block index is zero on
    both axes. -/

theorem emb0_0 (t : Fin cfg0.N) (y : ((cfg0.win 0).xblock (cfg0.grid.coords t)).Idx) :
    ((cfg0.win 0).blk t).view.emb y = y := by
  funext a; apply Fin.ext
  match a with
  | ⟨0, _⟩ => show win0_0.index t (0 : Fin 2) * 16 + 1 * (y 0).val = (y 0).val; have e : win0_0.index t (0 : Fin 2) = 0 := rfl; omega
  | ⟨1, _⟩ => show win0_0.index t (1 : Fin 2) * 25 + 1 * (y 1).val = (y 1).val; have e : win0_0.index t (1 : Fin 2) = 0 := rfl; omega

theorem emb0_1 (t : Fin cfg0.N) (y : ((cfg0.win 1).xblock (cfg0.grid.coords t)).Idx) :
    ((cfg0.win 1).blk t).view.emb y = y := by
  funext a; apply Fin.ext
  match a with
  | ⟨0, _⟩ => show win0_1.index t (0 : Fin 2) * 25 + 1 * (y 0).val = (y 0).val; have e : win0_1.index t (0 : Fin 2) = 0 := rfl; omega
  | ⟨1, _⟩ => show win0_1.index t (1 : Fin 2) * 256 + 1 * (y 1).val = (y 1).val; have e : win0_1.index t (1 : Fin 2) = 0 := rfl; omega

theorem emb0_2 (t : Fin cfg0.N) (y : ((cfg0.win 2).xblock (cfg0.grid.coords t)).Idx) :
    ((cfg0.win 2).blk t).view.emb y = y := by
  funext a; apply Fin.ext
  match a with
  | ⟨0, _⟩ => show win0_2.index t (0 : Fin 2) * 1 + 1 * (y 0).val = (y 0).val; have e : win0_2.index t (0 : Fin 2) = 0 := rfl; omega
  | ⟨1, _⟩ => show win0_2.index t (1 : Fin 2) * 256 + 1 * (y 1).val = (y 1).val; have e : win0_2.index t (1 : Fin 2) = 0 := rfl; omega

theorem emb0_3 (t : Fin cfg0.N) (y : ((cfg0.win 3).xblock (cfg0.grid.coords t)).Idx) :
    ((cfg0.win 3).blk t).view.emb y = y := by
  funext a; apply Fin.ext
  match a with
  | ⟨0, _⟩ => show win0_3.index t (0 : Fin 2) * 256 + 1 * (y 0).val = (y 0).val; have e : win0_3.index t (0 : Fin 2) = 0 := rfl; omega
  | ⟨1, _⟩ => show win0_3.index t (1 : Fin 2) * 128 + 1 * (y 1).val = (y 1).val; have e : win0_3.index t (1 : Fin 2) = 0 := rfl; omega

theorem emb0_4 (t : Fin cfg0.N) (y : ((cfg0.win 4).xblock (cfg0.grid.coords t)).Idx) :
    ((cfg0.win 4).blk t).view.emb y = y := by
  funext a; apply Fin.ext
  match a with
  | ⟨0, _⟩ => show win0_4.index t (0 : Fin 2) * 1 + 1 * (y 0).val = (y 0).val; have e : win0_4.index t (0 : Fin 2) = 0 := rfl; omega
  | ⟨1, _⟩ => show win0_4.index t (1 : Fin 2) * 128 + 1 * (y 1).val = (y 1).val; have e : win0_4.index t (1 : Fin 2) = 0 := rfl; omega

theorem emb0_5 (t : Fin cfg0.N) (y : ((cfg0.win 5).xblock (cfg0.grid.coords t)).Idx) :
    ((cfg0.win 5).blk t).view.emb y = y := by
  funext a; apply Fin.ext
  match a with
  | ⟨0, _⟩ => show win0_5.index t (0 : Fin 2) * 128 + 1 * (y 0).val = (y 0).val; have e : win0_5.index t (0 : Fin 2) = 0 := rfl; omega
  | ⟨1, _⟩ => show win0_5.index t (1 : Fin 2) * 64 + 1 * (y 1).val = (y 1).val; have e : win0_5.index t (1 : Fin 2) = 0 := rfl; omega

theorem emb0_6 (t : Fin cfg0.N) (y : ((cfg0.win 6).xblock (cfg0.grid.coords t)).Idx) :
    ((cfg0.win 6).blk t).view.emb y = y := by
  funext a; apply Fin.ext
  match a with
  | ⟨0, _⟩ => show win0_6.index t (0 : Fin 2) * 1 + 1 * (y 0).val = (y 0).val; have e : win0_6.index t (0 : Fin 2) = 0 := rfl; omega
  | ⟨1, _⟩ => show win0_6.index t (1 : Fin 2) * 64 + 1 * (y 1).val = (y 1).val; have e : win0_6.index t (1 : Fin 2) = 0 := rfl; omega

theorem emb0_7 (t : Fin cfg0.N) (y : ((cfg0.win 7).xblock (cfg0.grid.coords t)).Idx) :
    ((cfg0.win 7).blk t).view.emb y = y := by
  funext a; apply Fin.ext
  match a with
  | ⟨0, _⟩ => show win0_7.index t (0 : Fin 2) * 16 + 1 * (y 0).val = (y 0).val; have e : win0_7.index t (0 : Fin 2) = 0 := rfl; omega
  | ⟨1, _⟩ => show win0_7.index t (1 : Fin 2) * 64 + 1 * (y 1).val = (y 1).val; have e : win0_7.index t (1 : Fin 2) = 0 := rfl; omega

/-! So each input window's block at the one point is the whole array as the region finds it. -/

theorem iblk0_0 (c : Dev nD) (t : Fin cfg0.N) : iblk0 V c 0 t = V c main_arg0 := by
  funext y
  show V c main_arg0 (((cfg0.win 0).blk t).view.emb y) = V c main_arg0 y
  rw [emb0_0]

theorem iblk0_1 (c : Dev nD) (t : Fin cfg0.N) : iblk0 V c 1 t = V c main_arg1 := by
  funext y
  show V c main_arg1 (((cfg0.win 1).blk t).view.emb y) = V c main_arg1 y
  rw [emb0_1]

theorem iblk0_2 (c : Dev nD) (t : Fin cfg0.N) : iblk0 V c 2 t = V c main_arg2 := by
  funext y
  show V c main_arg2 (((cfg0.win 2).blk t).view.emb y) = V c main_arg2 y
  rw [emb0_2]

theorem iblk0_3 (c : Dev nD) (t : Fin cfg0.N) : iblk0 V c 3 t = V c main_arg3 := by
  funext y
  show V c main_arg3 (((cfg0.win 3).blk t).view.emb y) = V c main_arg3 y
  rw [emb0_3]

theorem iblk0_4 (c : Dev nD) (t : Fin cfg0.N) : iblk0 V c 4 t = V c main_arg4 := by
  funext y
  show V c main_arg4 (((cfg0.win 4).blk t).view.emb y) = V c main_arg4 y
  rw [emb0_4]

theorem iblk0_5 (c : Dev nD) (t : Fin cfg0.N) : iblk0 V c 5 t = V c main_arg5 := by
  funext y
  show V c main_arg5 (((cfg0.win 5).blk t).view.emb y) = V c main_arg5 y
  rw [emb0_5]

theorem iblk0_6 (c : Dev nD) (t : Fin cfg0.N) : iblk0 V c 6 t = V c main_arg6 := by
  funext y
  show V c main_arg6 (((cfg0.win 6).blk t).view.emb y) = V c main_arg6 y
  rw [emb0_6]

/-- The environment projection of the arrays the region finds: the body's stored value of the whole arrays. -/
def envOf (c : Dev nD) : S16x64.Idx → Elt F .f32 :=
  out0_7 (V c main_arg0) (V c main_arg1) (V c main_arg2) (V c main_arg3) (V c main_arg4) (V c main_arg5) (V c main_arg6)

/-- What the one point writes back is the whole of `envOf`. -/
theorem flushed7_eq (c : Dev nD) (t : Fin cfg0.N) :
    (dat0 V c).flushed 7 t = ((cfg0.win 7).blk t).view.read (Elt F) (envOf V c) := by
  show (cfg0.win 7).cut (grid0.coords t) ((dat0 V c).after 7 t) = _
  rw [after0_7, iblk0_0, iblk0_1, iblk0_2, iblk0_3, iblk0_4, iblk0_5, iblk0_6]
  funext y
  show envOf V c y = envOf V c (((cfg0.win 7).blk t).view.emb y)
  rw [emb0_7]

/-- Every index of the result array is in the one point's block. -/
theorem mem_blk7 (t : Fin cfg0.N) (i : S16x64.Idx) : i ∈ ((cfg0.win 7).blk t).view.set := by
  show i ∈ ((View.whole main_v0).slice (win0_7.rect t)).set
  rw [View.set_slice_whole, Rect.mem_set_unit]
  intro a
  match a with
  | ⟨0, _⟩ =>
    show win0_7.index t (0 : Fin 2) * 16 ≤ (i 0).val ∧ (i 0).val < win0_7.index t (0 : Fin 2) * 16 + 16
    have e : win0_7.index t (0 : Fin 2) = 0 := rfl
    have h : (i 0).val < 16 := (i 0).isLt
    omega
  | ⟨1, _⟩ =>
    show win0_7.index t (1 : Fin 2) * 64 ≤ (i 1).val ∧ (i 1).val < win0_7.index t (1 : Fin 2) * 64 + 64
    have e : win0_7.index t (1 : Fin 2) = 0 := rfl
    have h : (i 1).val < 64 := (i 1).isLt
    omega

theorem cover7 (i : S16x64.Idx) : ∃ t : Fin cfg0.N, (cfg0.win 7).flush t = true ∧ i ∈ ((cfg0.win 7).blk t).view.set :=
  ⟨⟨0, Nat.one_pos⟩, flush0_7 _, mem_blk7 _ i⟩

/-- THE RESULT ARRAY after the first region: the environment projection of the arrays the region found. -/
theorem env_final (c : Dev nD) : (dat0 V c).arrAt 7 cfg0.N = envOf V c :=
  (dat0 V c).arrAt_eq_of_cover 7 _ (fun t _ => flushed7_eq V c t) (cover7)

end Cert.ReferenceIdeal.EnvValue

end
-- ==== Proof.ReferenceHost.lean ====
/-
  The arrays the second region of the column-adding program finds, read at an index.

  Between the two regions the host transposes the 16 × 64 environment projection `env` to 64 × 16 — entry (h, b) of the
  transpose is `env (b, h)` — and pads the spatial coordinates on the right to a multiple of the tile: inside the
  original extent a padded entry is the original entry. The other three arrays the region reads are launch arrays no
  operation has written.
-/
import proofs.«154920_g2000706510910109_pallasbulk_1191_3_alg».proof.Proof.ReferenceEnv
import Idealize.ShloMosaic.Lib.StableHlo.Run
import Idealize.ShloMosaic.Lib.ValueLayout
import Idealize.ShloMosaic.Lib.KernelVsHost

set_option maxRecDepth 16384

noncomputable section

namespace Cert.ReferenceIdeal.HostValue

open Idealize.ShloMosaic Idealize.ShloMosaic.TcCoe Idealize.SL.Sem Idealize.ShloMosaic.StableHlo
open Idealize.ShloMosaic.ValueIdx
open Cert.ReferenceIdeal Cert.ReferenceIdeal.Gen

variable {F : FTy → Type} [FloatOps F]
variable (m : (ℓ : Loc nD τ sig) → Buf (Elt F) ℓ) (ρ : Dev nD → PrngReg)

/-- The environment projection of the launch arrays. -/
abbrev env (c : Dev nD) : S16x64.Idx → Elt F .f32 := EnvValue.envOf (V0 m ρ) c

/-- After the first region its result array holds the environment projection. -/
theorem w1_v0 (c : Dev nD) : W1 m ρ c (Proc.devRef .tc main_v0) = env m ρ c :=
  (W1_arr m ρ c 7).trans (EnvValue.env_final (V0 m ρ) c)

/-! ## The launch arrays read after the first region are as launched -/

theorem w1_arg7 (c : Dev nD) : W1 m ρ c (Proc.devRef .tc main_arg7) = m ((c : Thread nD τ).loc main_arg7) :=
  W1_of_ne m ρ c main_arg7 (by decide)
theorem w1_arg8 (c : Dev nD) : W1 m ρ c (Proc.devRef .tc main_arg8) = m ((c : Thread nD τ).loc main_arg8) :=
  W1_of_ne m ρ c main_arg8 (by decide)
theorem w1_arg9 (c : Dev nD) : W1 m ρ c (Proc.devRef .tc main_arg9) = m ((c : Thread nD τ).loc main_arg9) :=
  W1_of_ne m ρ c main_arg9 (by decide)
theorem w1_arg10 (c : Dev nD) : W1 m ρ c (Proc.devRef .tc main_arg10) = m ((c : Thread nD τ).loc main_arg10) :=
  W1_of_ne m ρ c main_arg10 (by decide)

/-! ## The arrays at the second region's entry, as the host operations' terms -/

/-- The transposed projection. -/
theorem v1_eq (c : Dev nD) : V3 m ρ c main_v1 = transpose S64x16 [1, 0] (env m ρ c) transposes_S16x64_S64x16_1_0 := by
  show StableHlo.after hostOps1_1 (StableHlo.after hostOps1 (W1 m ρ c)) (Proc.devRef .tc main_v1) = _
  after_results
  rw [w1_v0]

/-- The padded coordinates: the launch coordinates padded on the right with the converted integer zero. -/
theorem v2_eq (c : Dev nD) : V3 m ρ c main_v2
    = pad S3x1400320 ![0, 0] ![0, 320] ![0, 0] (m ((c : Thread nD τ).loc main_arg10))
        (sitofp (F := F) .f32 (constantI S_ 32 0#32)) pads_S3x1400000_S3x1400320_000_03200 h_S_ := by
  show StableHlo.after hostOps1_1 (StableHlo.after hostOps1 (W1 m ρ c)) (Proc.devRef .tc main_v2) = _
  after_results
  rw [show W1 m ρ c (Proc.devRef .tc (TRef.of main_arg10 (T := ⟨S3x1400000, .f32⟩)).ref)
        = m ((c : Thread nD τ).loc main_arg10) from w1_arg10 m ρ c]
  rfl

theorem arg7_eq (c : Dev nD) : V3 m ρ c main_arg7 = m ((c : Thread nD τ).loc main_arg7) := by
  show StableHlo.after hostOps1_1 (StableHlo.after hostOps1 (W1 m ρ c)) (Proc.devRef .tc main_arg7) = _
  after_results
  exact w1_arg7 m ρ c

theorem arg8_eq (c : Dev nD) : V3 m ρ c main_arg8 = m ((c : Thread nD τ).loc main_arg8) := by
  show StableHlo.after hostOps1_1 (StableHlo.after hostOps1 (W1 m ρ c)) (Proc.devRef .tc main_arg8) = _
  after_results
  exact w1_arg8 m ρ c

theorem arg9_eq (c : Dev nD) : V3 m ρ c main_arg9 = m ((c : Thread nD τ).loc main_arg9) := by
  show StableHlo.after hostOps1_1 (StableHlo.after hostOps1 (W1 m ρ c)) (Proc.devRef .tc main_arg9) = _
  after_results
  exact w1_arg9 m ρ c

/-! ## Read at an index -/

/-- Entry (h, b) of the transposed projection is entry (b, h) of the projection. -/
theorem v1_at (c : Dev nD) (b : Fin 16) (h : Fin 64) : V3 m ρ c main_v1 (ix2 h b) = env m ρ c (ix2 b h) := by
  rw [v1_eq]
  refine transpose_apply _ _ transposes_S16x64_S64x16_1_0 (ix2 h b) (ix2 b h) ?_
  intro a
  match a with
  | ⟨0, _⟩ => rfl
  | ⟨1, _⟩ => rfl

/-- Inside the original extent a padded coordinate is the launch coordinate. -/
theorem v2_at (c : Dev nD) (a : Fin 3) (n : Fin 1400320) (n' : Fin 1400000) (hn : n.val = n'.val) :
    V3 m ρ c main_v2 (ix2 a n) = m ((c : Thread nD τ).loc main_arg10) (ix2 a n') := by
  rw [v2_eq]
  refine pad_apply_of_inside _ _ _ _ _ pads_S3x1400000_S3x1400320_000_03200 h_S_ (ix2 a n) (ix2 a n') ?_
  intro a'
  match a' with
  | ⟨0, _⟩ => show a.val = 0 + a.val * (0 + 1); omega
  | ⟨1, _⟩ => show n.val = 0 + n'.val * (0 + 1); omega

end Cert.ReferenceIdeal.HostValue

end
-- ==== Proof.ReferenceArray.lean ====
/-
  The result of the column-adding program, entry by entry.

  The second kernel runs over 2735 tiles of 512 nodes. At tile t it reads the whole small arrays and columns
  512·t … 512·t + 511 of the padded coordinates, and writes the 16 × 512 block of the output at the same columns.
  Entry (b, q) of the block is the decoder's value for sample b at node 512·t + q, so every block is the restriction of
  ONE function of the whole arrays; the blocks tile the padded output, which therefore ends holding that function.
  The last host operation cuts the padding off, and inside the original extent a padded coordinate is the launch
  coordinate: entry (b, n) of the result is the decoder's value for sample b at node n of the launch arrays.
-/
import proofs.«154920_g2000706510910109_pallasbulk_1191_3_alg».proof.Proof.ReferenceHost
import proofs.«154920_g2000706510910109_pallasbulk_1191_3_alg».proof.Proof.Spec
import Idealize.ShloMosaic.Lib.Pipeline.Value
import Idealize.ShloMosaic.Lib.StableHlo.Run

set_option maxRecDepth 16384

noncomputable section

namespace Cert.ReferenceIdeal.NodeValue

open Idealize.ShloMosaic Idealize.ShloMosaic.TcCoe Idealize.SL.Sem Idealize.ShloMosaic.StableHlo
open Idealize.ShloMosaic.ValueIdx
open Idealize.ShloMosaic.Pipeline (Dat Cfg Window)
open Cert.ReferenceIdeal Cert.ReferenceIdeal.Gen

/-! ## The printed index maps, decided over the grid -/

theorem idx_facts : ∀ t : Fin cfg1.N,
    win1_0.index t (0 : Fin 2) = 0 ∧ win1_0.index t (1 : Fin 2) = 0 ∧
    win1_1.index t (0 : Fin 2) = 0 ∧ win1_1.index t (1 : Fin 2) = t.val ∧
    win1_2.index t (0 : Fin 2) = 0 ∧ win1_2.index t (1 : Fin 2) = 0 ∧
    win1_3.index t (0 : Fin 2) = 0 ∧ win1_3.index t (1 : Fin 2) = 0 ∧
    win1_4.index t (0 : Fin 2) = 0 ∧ win1_4.index t (1 : Fin 2) = 0 ∧
    win1_5.index t (0 : Fin 2) = 0 ∧ win1_5.index t (1 : Fin 2) = t.val :=
  (by decide +kernel : ∀ t : Fin grid1.N, _)

section Blocks
variable {F : FTy → Type} [FloatOps F]
variable (V : (c : Dev nD) → (b : Ref sig .tc) → Buf (Elt F) ((c : Thread nD τ).loc b))

/-! ## Each window's block at a tile, read off its array -/

theorem iblk1_0 (c : Dev nD) (t : Fin cfg1.N) : iblk1 V c 0 t = V c main_v1 := by
  funext y
  show V c main_v1 (((cfg1.win 0).blk t).view.emb y) = V c main_v1 y
  refine congrArg _ (funext fun a => Fin.ext ?_)
  have e0 : win1_0.index t (0 : Fin 2) = 0 := (idx_facts t).1
  have e1 : win1_0.index t (1 : Fin 2) = 0 := (idx_facts t).2.1
  match a with
  | ⟨0, _⟩ => show win1_0.index t (0 : Fin 2) * 64 + 1 * (y 0).val = (y 0).val; omega
  | ⟨1, _⟩ => show win1_0.index t (1 : Fin 2) * 16 + 1 * (y 1).val = (y 1).val; omega

theorem iblk1_1 (c : Dev nD) (t : Fin cfg1.N) (a : Fin 3) (q : Fin 512) (n : Fin 1400320) (hn : n.val = 512 * t.val + q.val) :
    iblk1 V c 1 t (ix2 a q) = V c main_v2 (ix2 a n) := by
  show V c main_v2 (((cfg1.win 1).blk t).view.emb (ix2 a q)) = V c main_v2 (ix2 a n)
  refine congrArg _ (funext fun a' => Fin.ext ?_)
  have e0 : win1_1.index t (0 : Fin 2) = 0 := (idx_facts t).2.2.1
  have e1 : win1_1.index t (1 : Fin 2) = t.val := (idx_facts t).2.2.2.1
  match a' with
  | ⟨0, _⟩ => show win1_1.index t (0 : Fin 2) * 3 + 1 * a.val = a.val; omega
  | ⟨1, _⟩ => show win1_1.index t (1 : Fin 2) * 512 + 1 * q.val = n.val; omega

theorem iblk1_2 (c : Dev nD) (t : Fin cfg1.N) : iblk1 V c 2 t = V c main_arg7 := by
  funext y
  show V c main_arg7 (((cfg1.win 2).blk t).view.emb y) = V c main_arg7 y
  refine congrArg _ (funext fun a => Fin.ext ?_)
  have e0 : win1_2.index t (0 : Fin 2) = 0 := (idx_facts t).2.2.2.2.1
  have e1 : win1_2.index t (1 : Fin 2) = 0 := (idx_facts t).2.2.2.2.2.1
  match a with
  | ⟨0, _⟩ => show win1_2.index t (0 : Fin 2) * 16 + 1 * (y 0).val = (y 0).val; omega
  | ⟨1, _⟩ => show win1_2.index t (1 : Fin 2) * 16 + 1 * (y 1).val = (y 1).val; omega

theorem iblk1_3 (c : Dev nD) (t : Fin cfg1.N) : iblk1 V c 3 t = V c main_arg8 := by
  funext y
  show V c main_arg8 (((cfg1.win 3).blk t).view.emb y) = V c main_arg8 y
  refine congrArg _ (funext fun a => Fin.ext ?_)
  have e0 : win1_3.index t (0 : Fin 2) = 0 := (idx_facts t).2.2.2.2.2.2.1
  have e1 : win1_3.index t (1 : Fin 2) = 0 := (idx_facts t).2.2.2.2.2.2.2.1
  match a with
  | ⟨0, _⟩ => show win1_3.index t (0 : Fin 2) * 64 + 1 * (y 0).val = (y 0).val; omega
  | ⟨1, _⟩ => show win1_3.index t (1 : Fin 2) * 16 + 1 * (y 1).val = (y 1).val; omega

theorem iblk1_4 (c : Dev nD) (t : Fin cfg1.N) : iblk1 V c 4 t = V c main_arg9 := by
  funext y
  show V c main_arg9 (((cfg1.win 4).blk t).view.emb y) = V c main_arg9 y
  refine congrArg _ (funext fun a => Fin.ext ?_)
  have e0 : win1_4.index t (0 : Fin 2) = 0 := (idx_facts t).2.2.2.2.2.2.2.2.1
  have e1 : win1_4.index t (1 : Fin 2) = 0 := (idx_facts t).2.2.2.2.2.2.2.2.2.1
  match a with
  | ⟨0, _⟩ => show win1_4.index t (0 : Fin 2) * 64 + 1 * (y 0).val = (y 0).val; omega
  | ⟨1, _⟩ => show win1_4.index t (1 : Fin 2) * 7 + 1 * (y 1).val = (y 1).val; omega

/-- Entry (b, q) of the output block at tile t sits in the output array at (b, 512·t + q). -/
theorem emb5 (t : Fin cfg1.N) (b : Fin 16) (q : Fin 512) (n : Fin 1400320) (hn : n.val = 512 * t.val + q.val) :
    ((cfg1.win 5).blk t).view.emb (ix2 b q) = ix2 b n := by
  funext a'; apply Fin.ext
  have e0 : win1_5.index t (0 : Fin 2) = 0 := (idx_facts t).2.2.2.2.2.2.2.2.2.2.1
  have e1 : win1_5.index t (1 : Fin 2) = t.val := (idx_facts t).2.2.2.2.2.2.2.2.2.2.2
  match a' with
  | ⟨0, _⟩ => show win1_5.index t (0 : Fin 2) * 16 + 1 * b.val = b.val; omega
  | ⟨1, _⟩ => show win1_5.index t (1 : Fin 2) * 512 + 1 * q.val = n.val; omega

/-- An index of the output array is in tile t's block iff each coordinate is in the block's range. -/
theorem mem_blk5 (t : Fin cfg1.N) (i : S16x1400320.Idx) :
    i ∈ ((cfg1.win 5).blk t).view.set ↔ ∀ a : Fin 2, win1_5.index t a * S16x512.size a ≤ (i a).val ∧ (i a).val < win1_5.index t a * S16x512.size a + S16x512.size a := by
  show i ∈ ((View.whole main_v3).slice (win1_5.rect t)).set ↔ _
  rw [View.set_slice_whole, Rect.mem_set_unit]
  exact Iff.rfl

/-- The blocks tile the output array: column n is in tile n / 512. -/
theorem cover5 (i : S16x1400320.Idx) : ∃ t : Fin cfg1.N, (cfg1.win 5).flush t = true ∧ i ∈ ((cfg1.win 5).blk t).view.set := by
  have h0 : (i 0).val < 16 := (i 0).isLt
  have h1 : (i 1).val < 1400320 := (i 1).isLt
  refine ⟨⟨(i 1).val / 512, by show (i 1).val / 512 < 2735; omega⟩, flush1_5 _, ?_⟩
  rw [mem_blk5]
  have e0 := (idx_facts ⟨(i 1).val / 512, by show (i 1).val / 512 < 2735; omega⟩).2.2.2.2.2.2.2.2.2.2.1
  have e1 := (idx_facts ⟨(i 1).val / 512, by show (i 1).val / 512 < 2735; omega⟩).2.2.2.2.2.2.2.2.2.2.2
  intro a
  match a with
  | ⟨0, _⟩ =>
    show win1_5.index _ (0 : Fin 2) * 16 ≤ (i 0).val ∧ (i 0).val < win1_5.index _ (0 : Fin 2) * 16 + 16
    rw [e0]; omega
  | ⟨1, _⟩ =>
    show win1_5.index _ (1 : Fin 2) * 512 ≤ (i 1).val ∧ (i 1).val < win1_5.index _ (1 : Fin 2) * 512 + 512
    rw [e1]; show (i 1).val / 512 * 512 ≤ (i 1).val ∧ (i 1).val < (i 1).val / 512 * 512 + 512; omega

end Blocks

/-! ## The output array and the result -/

variable (m : (ℓ : Loc nD τ sig) → Buf (Elt Ideal) ℓ) (ρ : Dev nD → PrngReg)

/-- What the node body computes, stated over its five blocks at an entry (proved where the body is read). -/
def BodyAt : Prop :=
  ∀ (x0 : Vec Ideal S64x16 .f32) (x1 : Vec Ideal S3x512 .f32) (x2 : Vec Ideal S16x16 .f32) (x3 : Vec Ideal S64x16 .f32)
    (x4 : Vec Ideal S64x7 .f32) (b : Fin 16) (q : Fin 512),
    out1_5 (F := Ideal) x0 x1 x2 x3 x4 (ix2 b q)
      = Cert.Spec.node (fun b h => x0 (ix2 h b)) (fun i j => x2 (ix2 i j)) (fun h k => x3 (ix2 h k))
          (fun h j => x4 (ix2 h j)) (fun a => x1 (ix2 a q)) b

/-- The decoder's value for sample `b` at the node whose coordinates are `sp`, from the launch arrays. -/
def nodeOf (c : Dev nD) (sp : Fin 3 → EReal) (b : Fin 16) : EReal :=
  Cert.Spec.node (fun b h => HostValue.env m ρ c (ix2 b h)) (fun i j => m ((c : Thread nD τ).loc main_arg7) (ix2 i j))
    (fun h k => m ((c : Thread nD τ).loc main_arg8) (ix2 h k)) (fun h j => m ((c : Thread nD τ).loc main_arg9) (ix2 h j)) sp b

/-- The padded output array: entry (b, n) is the value at the padded node n. -/
def G (c : Dev nD) : S16x1400320.Idx → EReal :=
  fun i => nodeOf m ρ c (fun a => V3 m ρ c main_v2 (ix2 a (i 1))) (i 0)

/-- What tile t writes back is block t of `G`. -/
theorem flushed5_eq (hbody : BodyAt) (c : Dev nD) (t : Fin cfg1.N) :
    (dat1 (V3 m ρ) c).flushed 5 t = ((cfg1.win 5).blk t).view.read (Elt Ideal) (G m ρ c) := by
  show (cfg1.win 5).cut (grid1.coords t) ((dat1 (V3 m ρ) c).after 5 t) = _
  rw [after1_5, iblk1_0, iblk1_2, iblk1_3, iblk1_4]
  funext y
  obtain ⟨b, q, rfl⟩ : ∃ (b : Fin 16) (q : Fin 512), y = ix2 b q := ⟨y 0, y 1, eq_ix2 y⟩
  have hq : 512 * t.val + q.val < 1400320 := by
    have ht : t.val < 2735 := t.isLt
    have hq' : q.val < 512 := q.isLt
    omega
  show out1_5 (F := Ideal) (V3 m ρ c main_v1) (iblk1 (V3 m ρ) c 1 t) (V3 m ρ c main_arg7) (V3 m ρ c main_arg8) (V3 m ρ c main_arg9) (ix2 b q)
    = G m ρ c (((cfg1.win 5).blk t).view.emb (ix2 b q))
  rw [emb5 t b q ⟨512 * t.val + q.val, hq⟩ rfl]
  refine (hbody _ _ _ _ _ b q).trans ?_
  show _ = nodeOf m ρ c (fun a => V3 m ρ c main_v2 (ix2 a ⟨512 * t.val + q.val, hq⟩)) b
  have hsp : (fun a : Fin 3 => iblk1 (V3 m ρ) c 1 t (ix2 a q))
      = fun a => V3 m ρ c main_v2 (ix2 a ⟨512 * t.val + q.val, hq⟩) :=
    funext fun a => iblk1_1 (V3 m ρ) c t a q ⟨512 * t.val + q.val, hq⟩ rfl
  have henv : (fun (b : Fin 16) (h : Fin 64) => V3 m ρ c main_v1 (ix2 h b)) = fun b h => HostValue.env m ρ c (ix2 b h) :=
    funext fun b => funext fun h => HostValue.v1_at m ρ c b h
  rw [hsp, henv, HostValue.arg7_eq, HostValue.arg8_eq, HostValue.arg9_eq]
  rfl

/-- THE PADDED OUTPUT ARRAY after the second region. -/
theorem final5 (hbody : BodyAt) (c : Dev nD) : (dat1 (V3 m ρ) c).arrAt 5 cfg1.N = G m ρ c :=
  (dat1 (V3 m ρ) c).arrAt_eq_of_cover 5 _ (fun t _ => flushed5_eq m ρ hbody c t) cover5

/-- THE RESULT, entry by entry: the decoder's value for sample b at node n of the launch coordinates. -/
theorem result_at (hbody : BodyAt) (c : Dev nD) (b : Fin 16) (n : Fin 1400000) :
    W5 m ρ c (Proc.devRef .tc main_v4) (ix2 b n)
      = nodeOf m ρ c (fun a => m ((c : Thread nD τ).loc main_arg10) (ix2 a n)) b := by
  have hn : n.val < 1400320 := by have := n.isLt; omega
  have e : W5 m ρ c (Proc.devRef .tc main_v4)
      = extractStridedSlice S16x1400000 ![0, 0] (G m ρ c) slices_S16x1400320_S16x1400000_0_0 := by
    show StableHlo.after hostOps2 (W4 m ρ c) (Proc.devRef .tc main_v4) = _
    after_results
    rw [show W4 m ρ c (Proc.devRef .tc main_v3) = G m ρ c from (W4_arr m ρ c 5).trans (final5 m ρ hbody c)]
  rw [e]
  refine (extractStridedSlice_apply _ _ slices_S16x1400320_S16x1400000_0_0 (ix2 b n) (ix2 b (⟨n.val, hn⟩ : Fin 1400320)) ?_).trans ?_
  · intro a
    match a with
    | ⟨0, _⟩ => show b.val = 0 + b.val; omega
    | ⟨1, _⟩ => show n.val = 0 + n.val; omega
  show nodeOf m ρ c (fun a => V3 m ρ c main_v2 (ix2 a (⟨n.val, hn⟩ : Fin 1400320))) b = _
  exact congrArg (fun sp => nodeOf m ρ c sp b) (funext fun a => HostValue.v2_at m ρ c a ⟨n.val, hn⟩ n rfl)

end Cert.ReferenceIdeal.NodeValue

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«154920_g2000706510910109_pallasbulk_1191_3_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelNode.lean ====
/-
  The node body at one entry of its output block.

  For one tile of 1024 grid nodes the body holds five blocks: the stacked weights (1024 rows of 17 entries; row 64·b + h
  belongs to sample b and hidden unit h), the 3 × 1024 tile of spatial coordinates, the 16 × 16 second-layer weight, the
  packed 64 × 7 parameter array, and the head weight repeated to 1024 rows. At node q it forms

      s j  = max (bs1 j + ws1 j 0 · sp 0 q + ws1 j 1 · sp 1 q + ws1 j 2 · sp 2 q) 0      (16 first-layer features),
      sf k = max (Σ_j ws2t k j · s j + bs2 k) 0                                          (16 second-layer features),

  where bs1, bs2 and the three columns of ws1 are columns 1, 2 and 3–5 of the first 16 rows of the packed array, each cut out
  as a column and repeated along the nodes, and each spatial row is cut out and repeated down the 16 features. It then puts a
  row of ones under the 16 rows of sf, multiplies the stacked weights by that 17 × 1024 array (one 17-term sum per row and
  node), clamps at zero, scales row r by the head weight of row r, regroups the 1024 rows as 16 blocks of 64 rows, adds up
  each block, and adds entry (0, 6) of the packed array to every entry.

  Read index by index at output entry (b, q) this is `Cert.Spec.nodeStacked` of the coordinate functions of the five blocks.
  Every layout step moves an index and nothing else: a cut reads the source at the shifted index, a repeated column or row
  reads its one entry, a reshape to the same shape is the identity, the join with the ones row reads the features above row
  16 and a one at row 16, and the regrouping of rows sends block (b, h) to flat row 64·b + h because both have the same
  row-major position. Each matrix product into a zero accumulator is the plain sum of products over its contraction index, and
  the sum along the middle axis of the regrouped array is the sum of its 64 entries. No law of the extended reals is used: the
  two sides are the same expression, term by term.
-/
import proofs.«154920_g2000706510910109_pallasbulk_1191_3_alg».proof.Proof.Gen.KernelIdeal.Frame
import proofs.«154920_g2000706510910109_pallasbulk_1191_3_alg».proof.Proof.Spec
import proofs.«154920_g2000706510910109_pallasbulk_1191_3_alg».proof.Proof.LibRowsTimes
import proofs.«154920_g2000706510910109_pallasbulk_1191_3_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeBody

open Idealize.ShloMosaic Idealize.ShloMosaic.ValueIdx Cert.KernelIdeal Cert.KernelIdeal.Gen
/-- Column `c` of the first 16 rows of the packed parameters, repeated along each row. -/
def colB (x3 : Vec Ideal S64x7 .f32) (c : Nat) (h : S64x7.Slices ![0, c] S16x1) : FVec Ideal S16x1024 .f32 :=
  broadcastTo S16x1024 (extractStridedSlice S16x1 ![0, c] x3 h) broadcasts_S16x1_S16x1024

/-- Column `c` of the 16 × 3 first-layer weight, repeated along each row. -/
def wB (x3 : Vec Ideal S64x7 .f32) (c : Nat) (h : S16x3.Slices ![0, c] S16x1) : FVec Ideal S16x1024 .f32 :=
  broadcastTo S16x1024 (extractStridedSlice S16x1 ![0, c] (extractStridedSlice S16x3 ![0, 3] x3 slices_S64x7_o0_3_S16x3) h) broadcasts_S16x1_S16x1024

/-- Row `a` of the spatial tile, repeated down the 16 rows. -/
def spB (x1 : Vec Ideal S3x1024 .f32) (a : Nat) (h : S3x1024.Slices ![a, 0] S1x1024) : FVec Ideal S16x1024 .f32 :=
  broadcastTo S16x1024 (extractStridedSlice S1x1024 ![a, 0] (shapeCast S3x1024 x1 shapeCasts_S3x1024_S3x1024) h) broadcasts_S1x1024_S16x1024

/-- The 16 × 1024 array of zeros both spatial layers clamp against. -/
def zeros16 : FVec Ideal S16x1024 .f32 := broadcast S16x1024 (Scalar.ofBits (F := Ideal) .f32 0x00000000#32)

/-- The first spatial layer on the tile: the bias column plus the three coordinate rows, each times its weight column, clamped at zero. -/
def layer1 (x3 : Vec Ideal S64x7 .f32) (x1 : Vec Ideal S3x1024 .f32) : FVec Ideal S16x1024 .f32 :=
  maximumf (addf (addf (addf (colB x3 1 slices_S64x7_o0_1_S16x1)
      (mulf (wB x3 0 slices_S16x3_o0_0_S16x1) (spB x1 0 slices_S3x1024_o0_0_S1x1024)))
      (mulf (wB x3 1 slices_S16x3_o0_1_S16x1) (spB x1 1 slices_S3x1024_o1_0_S1x1024)))
      (mulf (wB x3 2 slices_S16x3_o0_2_S16x1) (spB x1 2 slices_S3x1024_o2_0_S1x1024))) zeros16

/-- The second spatial layer on the tile: the 16 × 16 weight times the first layer, plus the bias column, clamped at zero. -/
def layer2 (x2 : Vec Ideal S16x16 .f32) (x3 : Vec Ideal S64x7 .f32) (x1 : Vec Ideal S3x1024 .f32) : FVec Ideal S16x1024 .f32 :=
  maximumf (addf (matmul (φ₁ := .f32) (φ₂ := .f32) dot_S16x16_S16x1024_S16x1024_1_0_0_1_n_n none x2 (layer1 x3 x1) (constant S16x1024 .f32 0x00000000#32))
      (colB x3 2 slices_S64x7_o0_2_S16x1)) zeros16

/-- The second layer's 16 rows with a row of ones appended below them. -/
def layer2One (x2 : Vec Ideal S16x16 .f32) (x3 : Vec Ideal S64x7 .f32) (x1 : Vec Ideal S3x1024 .f32) : FVec Ideal S17x1024 .f32 :=
  concatenate S17x1024 0 [⟨S16x1024, layer2 x2 x3 x1⟩, ⟨S1x1024, broadcast S1x1024 (Scalar.ofBits (F := Ideal) .f32 0x3F800000#32)⟩]
    concatenates_S16x1024_S1x1024_S17x1024_d0

/-- The body's clamped 1024 × 1024 array is the stacked weights times the second layer with its row of ones, clamped at zero: the
    same operations, grouped by layer. -/
theorem pay3_eq (x0 : Vec Ideal S1024x17 .f32) (x1 : Vec Ideal S3x1024 .f32) (x2 : Vec Ideal S16x16 .f32) (x3 : Vec Ideal S64x7 .f32) :
    k1_pay3 (F := Ideal) x3 x1 x2 x0
      = maximumf (matmul (φ₁ := .f32) (φ₂ := .f32) dot_S1024x17_S17x1024_S1024x1024_1_0_0_1_n_n none (shapeCast S1024x17 x0 shapeCasts_S1024x17_S1024x17)
          (layer2One x2 x3 x1) (constant S1024x1024 .f32 0x00000000#32))
          (broadcast S1024x1024 (Scalar.ofBits (F := Ideal) .f32 0x00000000#32)) := rfl

/-! ## Reading the three repeated columns and rows -/

/-- A repeated parameter column at feature `j` and any node is entry `(j, c)` of the packed array. -/
theorem colB_apply (x3 : Vec Ideal S64x7 .f32) (c : Nat) (hc : c < 7) (h : S64x7.Slices ![0, c] S16x1)
    (j : Fin 16) (q : Fin 1024) : colB x3 c h (ix2 j q) = x3 (ix2 (Cert.Spec.up j) (⟨c, hc⟩ : Fin 7)) := by
  unfold colB
  rw [broadcastTo_a1_ab_apply]
  exact extractStridedSlice_apply _ x3 h _ _ (fun a => by
    match a with
    | ⟨0, _⟩ => exact (Nat.zero_add _).symm
    | ⟨1, _⟩ => rfl)

/-- A repeated first-layer weight column at feature `j` and any node is entry `(j, 3 + c)` of the packed array. -/
theorem wB_apply (x3 : Vec Ideal S64x7 .f32) (c : Nat) (hc3 : c < 3) (h : S16x3.Slices ![0, c] S16x1)
    (j : Fin 16) (q : Fin 1024) : wB x3 c h (ix2 j q) = x3 (ix2 (Cert.Spec.up j) (⟨3 + c, by omega⟩ : Fin 7)) := by
  unfold wB
  rw [broadcastTo_a1_ab_apply]
  refine (extractStridedSlice_apply _ _ h _ (ix2 j (⟨c, hc3⟩ : Fin 3)) (fun a => by
    match a with
    | ⟨0, _⟩ => exact (Nat.zero_add _).symm
    | ⟨1, _⟩ => rfl)).trans ?_
  exact extractStridedSlice_apply _ x3 _ _ _ (fun a => by
    match a with
    | ⟨0, _⟩ => exact (Nat.zero_add _).symm
    | ⟨1, _⟩ => rfl)

/-- A repeated spatial row at any feature and node `q` is coordinate `a` of node `q`. -/
theorem spB_apply (x1 : Vec Ideal S3x1024 .f32) (a : Nat) (ha : a < 3) (h : S3x1024.Slices ![a, 0] S1x1024)
    (j : Fin 16) (q : Fin 1024) : spB x1 a h (ix2 j q) = x1 (ix2 (⟨a, ha⟩ : Fin 3) q) := by
  unfold spB
  rw [broadcastTo_1b_ab_apply, shapeCast_self]
  exact extractStridedSlice_apply _ x1 h _ _ (fun b => by
    match b with
    | ⟨0, _⟩ => rfl
    | ⟨1, _⟩ => exact (Nat.zero_add _).symm)

/-! ## The two spatial layers -/

/-- The first layer at feature `j` and node `q` is the specification's first-layer feature `j` of node `q`. -/
theorem layer1_apply (x3 : Vec Ideal S64x7 .f32) (x1 : Vec Ideal S3x1024 .f32) (j : Fin 16) (q : Fin 1024) :
    layer1 x3 x1 (ix2 j q)
      = Cert.Spec.feat1 (fun h c => x3 (ix2 h c)) (fun a => x1 (ix2 a q)) j := by
  unfold layer1 zeros16
  simp only [maximumf_apply, addf_apply, mulf_apply, broadcast_apply]
  rw [colB_apply x3 1 (by omega), wB_apply x3 0 (by omega), wB_apply x3 1 (by omega), wB_apply x3 2 (by omega),
    spB_apply x1 0 (by omega), spB_apply x1 1 (by omega), spB_apply x1 2 (by omega)]
  rfl

/-- The second layer at feature `k` and node `q` is the specification's second-layer feature `k` of node `q`: the product into zero is
    the 16-term sum over the first layer. -/
theorem layer2_apply (x2 : Vec Ideal S16x16 .f32) (x3 : Vec Ideal S64x7 .f32) (x1 : Vec Ideal S3x1024 .f32)
    (k : Fin 16) (q : Fin 1024) :
    layer2 x2 x3 x1 (ix2 k q)
      = Cert.Spec.feat2 (fun i j => x2 (ix2 i j)) (fun h c => x3 (ix2 h c)) (fun a => x1 (ix2 a q)) k := by
  unfold layer2 zeros16
  simp only [maximumf_apply, addf_apply, broadcast_apply, matmul]
  rw [RowsTimes.matmul_zero_apply (M := 16) (K := 16) (N := 1024) (φ₁ := .f32) (φ₂ := .f32) dot_S16x16_S16x1024_S16x1024_1_0_0_1_n_n
      rfl rfl rfl rfl rfl rfl rfl rfl none x2 (layer1 x3 x1) k q,
    colB_apply x3 2 (by omega)]
  unfold Cert.Spec.feat2
  simp only [layer1_apply]
  rfl

/-! ## The appended row of ones -/

/-- With the row of ones: rows below 16 read the second layer, row 16 reads one. -/
theorem layer2One_apply (x2 : Vec Ideal S16x16 .f32) (x3 : Vec Ideal S64x7 .f32) (x1 : Vec Ideal S3x1024 .f32)
    (k : Fin 17) (q : Fin 1024) :
    layer2One x2 x3 x1 (ix2 k q)
      = Cert.Spec.feat2One (fun i j => x2 (ix2 i j)) (fun h c => x3 (ix2 h c)) (fun a => x1 (ix2 a q)) k := by
  unfold layer2One Cert.Spec.feat2One
  by_cases hk : k.val < 16
  · rw [dif_pos hk]
    refine (concatenate_pair_apply_left (t := S17x1024) (s₁ := S16x1024) (s₂ := S1x1024) (0 : Fin 2) (layer2 x2 x3 x1)
      (broadcast S1x1024 (Scalar.ofBits (F := Ideal) .f32 0x3F800000#32)) concatenates_S16x1024_S1x1024_S17x1024_d0 (ix2 k q) rfl
      (ix2 (⟨k.val, hk⟩ : Fin 16) q) (fun b => by
        match b with
        | ⟨0, _⟩ => rfl
        | ⟨1, _⟩ => rfl)).trans ?_
    exact layer2_apply x2 x3 x1 ⟨k.val, hk⟩ q
  · rw [dif_neg hk]
    refine (concatenate_pair_apply_right (t := S17x1024) (s₁ := S16x1024) (s₂ := S1x1024) (0 : Fin 2) (layer2 x2 x3 x1)
      (broadcast S1x1024 (Scalar.ofBits (F := Ideal) .f32 0x3F800000#32)) concatenates_S16x1024_S1x1024_S17x1024_d0 (ix2 k q) rfl rfl
      (ix2 (0 : Fin 1) q) (fun b hb => by
        match b, hb with
        | ⟨0, _⟩, hb => exact absurd rfl hb
        | ⟨1, _⟩, _ => rfl)
      (by show 0 + 16 = k.val; have := k.isLt; omega)).trans ?_
    rfl

/-! ## The stacked contraction -/

/-- The clamped array at row `r` and node `q`: the 17-term sum of row `r` of the stacked weights against the second layer with its
    one, clamped at zero. -/
theorem hidden_apply (x0 : Vec Ideal S1024x17 .f32) (x1 : Vec Ideal S3x1024 .f32) (x2 : Vec Ideal S16x16 .f32)
    (x3 : Vec Ideal S64x7 .f32) (r : Fin 1024) (q : Fin 1024) :
    k1_pay3 (F := Ideal) x3 x1 x2 x0 (ix2 r q)
      = max (∑ k : Fin 17, x0 (ix2 r k)
          * Cert.Spec.feat2One (fun i j => x2 (ix2 i j)) (fun h c => x3 (ix2 h c)) (fun a => x1 (ix2 a q)) k) Cert.Spec.Z := by
  rw [pay3_eq]
  simp only [maximumf_apply, broadcast_apply, matmul]
  rw [RowsTimes.matmul_zero_apply (M := 1024) (K := 17) (N := 1024) (φ₁ := .f32) (φ₂ := .f32)
      dot_S1024x17_S17x1024_S1024x1024_1_0_0_1_n_n rfl rfl rfl rfl rfl rfl rfl rfl none
      (shapeCast S1024x17 x0 shapeCasts_S1024x17_S1024x17) (layer2One x2 x3 x1) r q,
    shapeCast_self]
  simp only [layer2One_apply]
  rfl

/-! ## The weighted sums over each sample's 64 rows -/

/-- The stored value at sample `b` and node `q`: the sum over the sample's 64 rows `64·b + h` of the clamped array times the head
    weight of that row, plus the one entry of the 1 × 1 array. -/
theorem pay1_apply (v4 : FVec Ideal S1x1 .f32) (v40 : FVec Ideal S1024x1024 .f32) (v42 : FVec Ideal S1024x1 .f32)
    (b : Fin 16) (q : Fin 1024) :
    k1_pay1 (F := Ideal) v4 v40 v42 (ix2 b q)
      = (∑ h : Fin 64, v40 (ix2 (Cert.Spec.row b h) q) * v42 (ix2 (Cert.Spec.row b h) (0 : Fin 1)))
        + v4 (ix2 (0 : Fin 1) (0 : Fin 1)) := by
  show multiReduction (F := Ideal) .add [1] S16x1024
        (shapeCast S16x64x1024 (mulf v40 (broadcastTo S1024x1024 v42 broadcasts_S1024x1_S1024x1024))
          shapeCasts_S1024x1024_S16x64x1024)
        0x00000000#32 reduces_S16x64x1024_S16x1024 (.inl rfl) rfl (ix2 b q)
      + broadcastTo S16x1024 v4 broadcasts_S1x1_S16x1024 (ix2 b q) = _
  refine congrArg₂ (· + ·) ?_ ?_
  · refine (Ideal.multiReduction_add_single _ _ reduces_S16x64x1024_S16x1024 _ _ (ix2 b q)).trans ?_
    refine Finset.sum_congr rfl fun h _ => ?_
    refine (shapeCast_apply _ shapeCasts_S1024x1024_S16x64x1024 _ (ix2 (Cert.Spec.row b h) q) ?_).trans ?_
    · rw [Shape.rowMajor_val_two, Shape.rowMajor_val_three]
      show (64 * b.val + h.val) * 1024 + q.val = (b.val * 64 + h.val) * 1024 + q.val
      omega
    · rw [mulf_apply, broadcastTo_a1_ab_apply]
  · exact broadcastTo_apply v4 broadcasts_S1x1_S16x1024 (ix2 b q) (ix2 (0 : Fin 1) (0 : Fin 1)) (fun a => by
      match a with
      | ⟨0, _⟩ => rfl
      | ⟨1, _⟩ => rfl)

/-! ## The body's output block -/

/-- The 1 × 1 array cut from the packed parameters holds their entry `(0, 6)`. -/
theorem pay2_apply (x3 : Vec Ideal S64x7 .f32) :
    k1_pay2 (F := Ideal) x3 (ix2 (0 : Fin 1) (0 : Fin 1)) = x3 (ix2 (0 : Fin 64) (6 : Fin 7)) :=
  extractStridedSlice_apply _ x3 slices_S64x7_o0_6_S1x1 _ _ (fun a => by
    match a with
    | ⟨0, _⟩ => rfl
    | ⟨1, _⟩ => rfl)

/-- The head-weight block reshaped to its own shape is itself. -/
theorem pay4_eq (x4 : Vec Ideal S1024x1 .f32) : k1_pay4 (F := Ideal) x4 = x4 :=
  shapeCast_self x4 shapeCasts_S1024x1_S1024x1

/-- What the body leaves in its output block at sample `b` and node `q` is the stacked form of the decoder's value at that node. -/
theorem out1_5_apply (x0 : Vec Ideal S1024x17 .f32) (x1 : Vec Ideal S3x1024 .f32) (x2 : Vec Ideal S16x16 .f32)
    (x3 : Vec Ideal S64x7 .f32) (x4 : Vec Ideal S1024x1 .f32) (b : Fin 16) (q : Fin 1024) :
    Cert.KernelIdeal.Gen.out1_5 (F := Ideal) x0 x1 x2 x3 x4 (ValueIdx.ix2 b q)
      = Cert.Spec.nodeStacked (fun r k => x0 (ValueIdx.ix2 r k)) (fun i j => x2 (ValueIdx.ix2 i j))
          (fun h j => x3 (ValueIdx.ix2 h j)) (fun r => x4 (ValueIdx.ix2 r (0 : Fin 1)))
          (fun a => x1 (ValueIdx.ix2 a q)) b := by
  have hz : (![0, 0] : Fin 2 → Nat) = fun _ => 0 := funext fun a => by fin_cases a <;> rfl
  unfold Gen.out1_5
  rw [View.canon_unit_zero hz]
  simp only [View.ld_unit_zero (S := S64x7) hz, View.ld_unit_zero (S := S3x1024) hz, View.ld_unit_zero (S := S16x16) hz,
    View.ld_unit_zero (S := S1024x17) hz, View.ld_unit_zero (S := S1024x1) hz]
  rw [pay1_apply, pay2_apply, pay4_eq]
  simp only [hidden_apply]
  rfl

end Cert.KernelIdeal.NodeBody

end
-- ==== Proof.ReferenceNode.lean ====
/-
  The node body of the reference decoder, read entry by entry.

  For one tile of 512 grid nodes the body receives the transposed sample projections `envp` (64 × 16, entry (h, b) is
  hidden unit h of sample b), the spatial tile `sp` (3 × 512), the second spatial layer's weights `ws2t` (16 × 16), the
  spatial half of the first decoder layer `wd1st` (64 × 16) and the packed 64 × 7 array `cols` whose columns are the head
  weights, the two spatial biases, the three columns of the first spatial layer's weights and the output bias.

  At node q it forms, in this order,
    s j      = max (((bs1 j + ws1 j 0 · sp 0 q) + ws1 j 1 · sp 1 q) + ws1 j 2 · sp 2 q) 0        (16 features),
    sf k     = max ((Σ_j ws2t k j · s j) + bs2 k) 0                                             (16 features),
    proj h   = Σ_k wd1st h k · sf k                                                             (64 hidden units),
  and then, once per sample b, the row
    row b    = Σ_h max (proj h + envp h b) 0 · wd2 h.
  The sixteen rows are stacked along the sample axis and the output bias is added to every entry. So the entry (b, q) of
  the output block is exactly `Cert.Spec.node` at sample b with the node's three coordinates `sp · q`.

  The proof follows the body. A matrix product into a zero accumulator is the plain sum of products over the contraction
  index; a column kept as an [a, 1] array and broadcast along the lanes reads the column's entry of that row, a [1, b] row
  broadcast along the rows reads the row's entry of that lane; a block cut out of a matrix reads the matrix at the shifted
  coordinates; a sum over the row axis of a 64 × 512 array, at lane q, is the sum over the 64 rows of the entries (h, q).
  The sixteen sample rows are one and the same expression in the column offset b, so one lemma (`row_apply`) reads all of
  them, and a stack of sixteen one-row pieces read at row b is the b-th piece (`concat16_apply`). No property of finite
  numbers is used: both sides are the same sums, products and maxima of the same extended reals.
-/
import proofs.«154920_g2000706510910109_pallasbulk_1191_3_alg».proof.Proof.Gen.ReferenceIdeal.Frame
import proofs.«154920_g2000706510910109_pallasbulk_1191_3_alg».proof.Proof.Spec
import proofs.«154920_g2000706510910109_pallasbulk_1191_3_alg».proof.Proof.LibRowsTimes
import proofs.«154920_g2000706510910109_pallasbulk_1191_3_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.NodeBody

open Idealize.ShloMosaic Idealize.ShloMosaic.ValueIdx Cert.ReferenceIdeal Cert.ReferenceIdeal.Gen

/-- A matrix cut from row `o0` and column `o1` reads, at `(i, j)`, the source at `(o0 + i, o1 + j)`. -/
theorem slice2_both_apply {α : Type} {n0 n1 m0 m1 : Nat} (o0 o1 : Nat) (X : (⟨2, ![n0, n1]⟩ : Shape).Idx → α)
    (h : (⟨2, ![n0, n1]⟩ : Shape).Slices ![o0, o1] ⟨2, ![m0, m1]⟩) (i : Fin m0) (j : Fin m1) (k0 : Fin n0) (k1 : Fin n1)
    (h0 : k0.val = o0 + i.val) (h1 : k1.val = o1 + j.val) :
    extractStridedSlice ⟨2, ![m0, m1]⟩ ![o0, o1] X h (ix2 i j) = X (ix2 k0 k1) :=
  extractStridedSlice_apply _ _ _ _ _ (fun ax => by
    match ax with
    | ⟨0, _⟩ => exact h0
    | ⟨1, _⟩ => exact h1)

/-- One sample's row at lane `q`: with the column offset `o = b`, the sum over the 64 hidden units of the rectified
    `proj h q + envp h b` times the head weight of `h`. The reduction runs over the row axis, so its index at lane `q` with
    the row `h` put back is `(h, q)`. -/
theorem row_apply (v1 : FVec Ideal S64x1 .f32) (v36 : FVec Ideal S64x512 .f32) (v38 : FVec Ideal S64x16 .f32)
    (o : Nat) (hs : S64x16.Slices ![0, o] S64x1) (hb : S64x1.Broadcasts S64x512) (hr : S64x512.Reduces [0] S512)
    (hc : S512.ShapeCasts S1x512) (hacc : (0x00000000#32 : BitVec 32) = 0x00000000#32)
    (u : Fin 1) (q : Fin 512) (b : Fin 16) (hbo : b.val = o) :
    shapeCast S1x512 (multiReduction (F := Ideal) .add [0] S512
        (mulf (maximumf (addf v36 (broadcastTo S64x512 (extractStridedSlice S64x1 ![0, o] v38 hs) hb))
          (broadcast S64x512 (Scalar.ofBits .f32 0x00000000#32))) (broadcastTo S64x512 v1 hb))
        0x00000000#32 hr (.inl rfl) hacc) hc (ix2 u q)
      = ∑ h : Fin 64, max (v36 (ix2 h q) + v38 (ix2 h b)) Cert.Spec.Z * v1 (ix2 h (0 : Fin 1)) := by
  rw [shapeCast_a_1a_apply]
  refine (Ideal.multiReduction_add_single _ 0x00000000#32 hr (.inl rfl) hacc (ix1 q)).trans ?_
  show ∑ h : Fin 64, _ = _
  refine Finset.sum_congr rfl fun h _ => ?_
  have e : hr.lift (ix1 q) h = ix2 h q := by
    funext c; apply Fin.ext
    match c with
    | ⟨0, _⟩ => rfl
    | ⟨1, _⟩ => rfl
  rw [e]
  show max (v36 (ix2 h q) + broadcastTo S64x512 (extractStridedSlice S64x1 ![0, o] v38 hs) hb (ix2 h q)) Cert.Spec.Z
      * broadcastTo S64x512 v1 hb (ix2 h q) = _
  rw [broadcastTo_a1_ab_apply, broadcastTo_a1_ab_apply, slice2_axis1_apply o v38 hs h 0 b (by simp [hbo])]

/-- The spatial projection: both spatial layers and the first decoder contraction, at hidden unit `h` and node `q`. -/
theorem pay3_apply (v0 : Vec Ideal S64x7 .f32) (v6 : Vec Ideal S3x512 .f32) (v29 : Vec Ideal S16x16 .f32)
    (v35 : Vec Ideal S64x16 .f32) (h : Fin 64) (q : Fin 512) :
    k1_pay3 (F := Ideal) v0 v6 v29 v35 (ix2 h q)
      = ∑ k : Fin 16, v35 (ix2 h k) * Cert.Spec.feat2 (fun i j => v29 (ix2 i j)) (fun h j => v0 (ix2 h j)) (fun a => v6 (ix2 a q)) k := by
  unfold k1_pay3
  refine (RowsTimes.matmul_zero_apply dot_S64x16_S16x512_S64x512_1_0_0_1_n_n rfl rfl rfl rfl rfl rfl rfl rfl none v35 _ h q).trans ?_
  refine Finset.sum_congr rfl fun k _ => congrArg (v35 (ix2 h k) * ·) ?_
  unfold Cert.Spec.feat2
  simp only [maximumf_apply, addf_apply, broadcast_apply]
  refine congrArg₂ max (congrArg₂ (· + ·) ?_ ?_) rfl
  · refine (RowsTimes.matmul_zero_apply dot_S16x16_S16x512_S16x512_1_0_0_1_n_n rfl rfl rfl rfl rfl rfl rfl rfl none v29 _ k q).trans ?_
    refine Finset.sum_congr rfl fun j _ => congrArg (v29 (ix2 k j) * ·) ?_
    unfold Cert.Spec.feat1
    simp only [maximumf_apply, addf_apply, mulf_apply, broadcast_apply, broadcastTo_a1_ab_apply, broadcastTo_1b_ab_apply,
      shapeCast_self]
    rw [slice2_both_apply 0 1 v0 _ j (0 : Fin 1) (Cert.Spec.up j) (1 : Fin 7) (Nat.zero_add _).symm rfl,
      slice2_both_apply 0 0 _ _ j (0 : Fin 1) j (0 : Fin 3) (Nat.zero_add _).symm rfl,
      slice2_both_apply 0 3 v0 _ j (0 : Fin 3) (Cert.Spec.up j) (3 : Fin 7) (Nat.zero_add _).symm rfl,
      slice2_both_apply 0 1 _ _ j (0 : Fin 1) j (1 : Fin 3) (Nat.zero_add _).symm rfl,
      slice2_both_apply 0 3 v0 _ j (1 : Fin 3) (Cert.Spec.up j) (4 : Fin 7) (Nat.zero_add _).symm rfl,
      slice2_both_apply 0 2 _ _ j (0 : Fin 1) j (2 : Fin 3) (Nat.zero_add _).symm rfl,
      slice2_both_apply 0 3 v0 _ j (2 : Fin 3) (Cert.Spec.up j) (5 : Fin 7) (Nat.zero_add _).symm rfl,
      slice2_both_apply 0 0 v6 _ (0 : Fin 1) q (0 : Fin 3) q rfl (Nat.zero_add _).symm,
      slice2_both_apply 1 0 v6 _ (0 : Fin 1) q (1 : Fin 3) q rfl (Nat.zero_add _).symm,
      slice2_both_apply 2 0 v6 _ (0 : Fin 1) q (2 : Fin 3) q rfl (Nat.zero_add _).symm]
    rfl
  · rw [broadcastTo_a1_ab_apply, slice2_both_apply 0 2 v0 _ k (0 : Fin 1) (Cert.Spec.up k) (2 : Fin 7) (Nat.zero_add _).symm rfl]

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax =>
    match ax with
    | ⟨0, _⟩ => rfl
    | ⟨1, _⟩ => rfl

/-- Sixteen rows of 512 entries stacked along axis 0: row `b` of the stack is the `b`-th piece. -/
theorem concat16_apply {α : Type} (R : Fin 16 → (S1x512.Idx → α))
    (h : Shape.Concatenates [S1x512, S1x512, S1x512, S1x512, S1x512, S1x512, S1x512, S1x512, S1x512, S1x512, S1x512, S1x512, S1x512, S1x512, S1x512, S1x512] S16x512 0) (b : Fin 16) (q : Fin 512) :
    concatenate S16x512 0 [⟨S1x512, R 0⟩, ⟨S1x512, R 1⟩, ⟨S1x512, R 2⟩, ⟨S1x512, R 3⟩, ⟨S1x512, R 4⟩, ⟨S1x512, R 5⟩, ⟨S1x512, R 6⟩, ⟨S1x512, R 7⟩, ⟨S1x512, R 8⟩, ⟨S1x512, R 9⟩, ⟨S1x512, R 10⟩, ⟨S1x512, R 11⟩, ⟨S1x512, R 12⟩, ⟨S1x512, R 13⟩, ⟨S1x512, R 14⟩, ⟨S1x512, R 15⟩] h (ix2 b q) = R b (ix2 (0 : Fin 1) q) :=
  concatenate_ofFn_unit_apply (t := S16x512) (s₁ := S1x512) 0 R h rfl rfl (ix2 b q) b rfl (ix2 (0 : Fin 1) q)
    (fun c hc => match c, hc with
      | ⟨0, _⟩, hc => absurd rfl hc
      | ⟨1, _⟩, _ => rfl)

/-- Column `n` of a 64 × 16 array is a 64 × 1 block of it. -/
theorem slices_col (n : Fin 16) : S64x16.Slices ![0, n.val] S64x1 :=
  ⟨rfl, fun a => match a with
    | ⟨0, _⟩ => Nat.le_of_eq (Nat.zero_add 64)
    | ⟨1, _⟩ => n.isLt⟩

/-- Sample `n`'s row as one term: the rectified sum of the spatial projection and the sample's column, weighted by the head
    column and summed over the hidden units. -/
def rowT (v1 : FVec Ideal S64x1 .f32) (v36 : FVec Ideal S64x512 .f32) (v38 : FVec Ideal S64x16 .f32) (n : Fin 16) :
    FVec Ideal S1x512 .f32 :=
  shapeCast S1x512 (multiReduction (F := Ideal) .add [0] S512
      (mulf (maximumf (addf v36 (broadcastTo S64x512 (extractStridedSlice S64x1 ![0, n.val] v38 (slices_col n)) broadcasts_S64x1_S64x512))
        (broadcast S64x512 (Scalar.ofBits .f32 0x00000000#32))) (broadcastTo S64x512 v1 broadcasts_S64x1_S64x512))
      0x00000000#32 reduces_S64x512_S512 (.inl rfl) rfl) shapeCasts_S512_S1x512

/-- The all-zero offset pair, as the constant function. -/
theorem zero_offsets : (![0, 0] : Fin 2 → Nat) = fun _ => 0 := funext fun a => by fin_cases a <;> rfl

/-- THE BODY'S RESULT: entry `(b, q)` of the output block is the decoder's value at node `q` for sample `b`. -/
theorem out1_5_apply (x0 : Vec Ideal S64x16 .f32) (x1 : Vec Ideal S3x512 .f32) (x2 : Vec Ideal S16x16 .f32)
    (x3 : Vec Ideal S64x16 .f32) (x4 : Vec Ideal S64x7 .f32) (b : Fin 16) (q : Fin 512) :
    Cert.ReferenceIdeal.Gen.out1_5 (F := Ideal) x0 x1 x2 x3 x4 (ValueIdx.ix2 b q)
      = Cert.Spec.node (fun b h => x0 (ValueIdx.ix2 h b)) (fun i j => x2 (ValueIdx.ix2 i j))
          (fun h k => x3 (ValueIdx.ix2 h k)) (fun h j => x4 (ValueIdx.ix2 h j)) (fun a => x1 (ValueIdx.ix2 a q)) b := by
  unfold Gen.out1_5
  rw [View.canon_unit_zero zero_offsets]
  simp only [View.ld_unit_zero (S := S64x7) zero_offsets, View.ld_unit_zero (S := S3x512) zero_offsets, View.ld_unit_zero (S := S16x16) zero_offsets,
    View.ld_unit_zero (S := S64x16) zero_offsets]
  unfold k1_pay20
  simp only [addf_apply]
  unfold Cert.Spec.node
  refine congrArg₂ (· + ·) ?_ ?_
  · refine (concat16_apply (rowT (k1_pay1 x4) (k1_pay3 x4 x1 x2 x3) (k1_pay4 x0)) _ b q).trans ?_
    refine (row_apply (k1_pay1 x4) (k1_pay3 x4 x1 x2 x3) (k1_pay4 x0) b.val (slices_col b) _ _ _ rfl (0 : Fin 1) q b rfl).trans ?_
    refine Finset.sum_congr rfl fun h _ => ?_
    rw [pay3_apply]
    unfold k1_pay4 k1_pay1
    rw [shapeCast_self, slice2_both_apply 0 0 x4 _ h (0 : Fin 1) h (0 : Fin 7) (Nat.zero_add _).symm rfl]
  · rw [broadcastTo_11_ab_apply]
    unfold k1_pay2
    exact slice2_both_apply 0 6 x4 _ (0 : Fin 1) (0 : Fin 1) (0 : Fin 64) (6 : Fin 7) rfl rfl

end Cert.ReferenceIdeal.NodeBody

end
-- ==== Proof.lean ====
/-
  Two Pallas programs for one decoder, equal entry by entry over the extended reals.

  Both programs first run the same environment encoder (one kernel without a grid) and then a node kernel over tiles of
  grid nodes; the result is a 16 × 1 400 000 array whose entry (b, n) is, for sample b and node n,
      Σ_h max (Σ_k wd1st h k · sf k n + env b h) 0 · wd2 h + bd2,
  with sf the two-layer spatial features of node n's three coordinates (the module Spec states it once).

  The reference transposes the environment projection, works on tiles of 512 nodes and adds the sample's column after a
  16-term contraction, once per sample. The kernel stacks the samples' weights into 1024 rows of 17 entries — the 17th
  being env b h —, appends a row of ones to the features, works on tiles of 1024 nodes and takes one 17-term contraction:
  its last term is env b h · 1. Splitting that term off the sum is the only algebra between the two; the different tile
  widths and paddings disappear because every output block is the restriction of one function of the whole arrays, and the
  padded columns are cut off at the end. Nothing needs the inputs to be finite.

  The three frame claims are the generated frame certificates; the idealization rewrote nothing, so `preserves` is trivial.
-/
import proofs.«154920_g2000706510910109_pallasbulk_1191_3_alg».proof.Defs
import proofs.«154920_g2000706510910109_pallasbulk_1191_3_alg».proof.Proof.Gen.Kernel
import proofs.«154920_g2000706510910109_pallasbulk_1191_3_alg».proof.Proof.Gen.Kernel.Frame
import proofs.«154920_g2000706510910109_pallasbulk_1191_3_alg».proof.Proof.Gen.KernelIdeal
import proofs.«154920_g2000706510910109_pallasbulk_1191_3_alg».proof.Proof.Gen.KernelIdeal.Frame
import proofs.«154920_g2000706510910109_pallasbulk_1191_3_alg».proof.Proof.Gen.ReferenceIdeal
import proofs.«154920_g2000706510910109_pallasbulk_1191_3_alg».proof.Proof.Gen.ReferenceIdeal.Frame
import proofs.«154920_g2000706510910109_pallasbulk_1191_3_alg».proof.Proof.Gen.Pre_finite_inputs
import proofs.«154920_g2000706510910109_pallasbulk_1191_3_alg».proof.Proof.KernelRun
import proofs.«154920_g2000706510910109_pallasbulk_1191_3_alg».proof.Proof.ReferenceRun
import proofs.«154920_g2000706510910109_pallasbulk_1191_3_alg».proof.Proof.KernelArray
import proofs.«154920_g2000706510910109_pallasbulk_1191_3_alg».proof.Proof.ReferenceArray
import proofs.«154920_g2000706510910109_pallasbulk_1191_3_alg».proof.Proof.KernelNode
import proofs.«154920_g2000706510910109_pallasbulk_1191_3_alg».proof.Proof.ReferenceNode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The two programs' environment encoders are the same operations in the same order, so they are one function of the
    seven arrays they read. -/
theorem env_eq (x0 : Vec Ideal Cert.KernelIdeal.S16x25 .f32) (x1 : Vec Ideal Cert.KernelIdeal.S25x256 .f32)
    (x2 : Vec Ideal Cert.KernelIdeal.S1x256 .f32) (x3 : Vec Ideal Cert.KernelIdeal.S256x128 .f32)
    (x4 : Vec Ideal Cert.KernelIdeal.S1x128 .f32) (x5 : Vec Ideal Cert.KernelIdeal.S128x64 .f32)
    (x6 : Vec Ideal Cert.KernelIdeal.S1x64 .f32) :
    Cert.ReferenceIdeal.Gen.out0_7 (F := Ideal) x0 x1 x2 x3 x4 x5 x6
      = Cert.KernelIdeal.Gen.out0_7 (F := Ideal) x0 x1 x2 x3 x4 x5 x6 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

theorem preserves : Cert.preserves_Kernel_KernelIdeal := trivial

/-- From memories that agree on the arguments both programs end with the same result array: at entry (b, n) each holds
    the decoder's value for sample b at node n of the launch arrays. -/
theorem algebraic : Cert.algebraic_KernelIdeal_ReferenceIdeal := by
  intro m ρ m' ρ' _ hagree
  refine ⟨fun c => Cert.KernelIdeal.Gen.W5 m ρ c (Proc.devRef .tc Cert.KernelIdeal.main_v12),
    Cert.KernelIdeal.RunValue.run (F := Ideal) m ρ, ?_⟩
  refine (θ_run Cert.ReferenceIdeal.defs _ _).mono (fun r h c => ⟨(h c).1.trans ?_, (h c).2⟩)
    (Cert.ReferenceIdeal.RunValue.run (F := Ideal) m' ρ')
  funext i
  obtain ⟨b, n, rfl⟩ : ∃ (b : Fin 16) (n : Fin 1400000), i = ix2 b n := ⟨i 0, i 1, eq_ix2 i⟩
  refine (Cert.ReferenceIdeal.NodeValue.result_at m' ρ' Cert.ReferenceIdeal.NodeBody.out1_5_apply c b n).trans ?_
  refine Eq.trans ?_ (Cert.KernelIdeal.NodeValue.result_at m ρ Cert.KernelIdeal.NodeBody.out1_5_apply c b n).symm
  obtain ⟨h0, h1, h2, h3, h4, h5, h6, h7, h8, h9, h10⟩ := hagree c
  unfold Cert.ReferenceIdeal.NodeValue.nodeOf Cert.KernelIdeal.NodeValue.nodeOf
  show Cert.Spec.node
      (fun b h => Cert.ReferenceIdeal.Gen.out0_7 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (ix2 b h))
      (fun i j => m' ((c.tc : Thread Cert.ReferenceIdeal.nD Cert.ReferenceIdeal.τ).loc Cert.ReferenceIdeal.main_arg7) (ix2 i j))
      (fun h k => m' ((c.tc : Thread Cert.ReferenceIdeal.nD Cert.ReferenceIdeal.τ).loc Cert.ReferenceIdeal.main_arg8) (ix2 h k))
      (fun h j => m' ((c.tc : Thread Cert.ReferenceIdeal.nD Cert.ReferenceIdeal.τ).loc Cert.ReferenceIdeal.main_arg9) (ix2 h j))
      (fun a => m' ((c.tc : Thread Cert.ReferenceIdeal.nD Cert.ReferenceIdeal.τ).loc Cert.ReferenceIdeal.main_arg10) (ix2 a n)) b
    = _
  rw [h0, h1, h2, h3, h4, h5, h6, h7, h8, h9, h10, env_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
